-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S64x16384 : Shape := ⟨2, ![64, 16384]⟩
abbrev S64 : Shape := ⟨1, ![64]⟩
abbrev S16384x2048 : Shape := ⟨2, ![16384, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S64x16384 : S_.BroadcastsInDim S64x16384 (![] : Fin 0 → Fin S64x16384.rank)
  reducesTo_S64x16384_S_d0_1 : S64x16384.ReducesTo [0, 1] S_
  bcast_S_S16384x2048 : S_.BroadcastsInDim S16384x2048 (![] : Fin 0 → Fin S16384x2048.rank)
  reducesTo_S16384x2048_S_d0_1 : S16384x2048.ReducesTo [0, 1] S_
  reducesTo_S64x2048_S64_d1 : S64x2048.ReducesTo [1] S64
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .ogt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v13 main_v18
  main_v19

def fn {F : FTy → Type} [FloatOps F] (main_arg0 : FVec F S64x2048 .f32) (main_arg1 : FVec F S64x16384 .f32) (main_arg2 : IVec S64 32) (main_arg3 : FVec F S16384x2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S64x16384 .f32 := Host.absf main_arg1
  let main_cst_0 : FVec F S_ .f32 := constant S_ .f32 0x7F800000#32
  let main_v5 : FVec F S64x16384 .f32 := broadcastInDim S64x16384 ![] bcast_S_S64x16384 main_cst_0
  let main_v6 : IVec S64x16384 1 := cmpf .olt main_v4 main_v5
  let main_c_1 : IVec S_ 1 := constantI S_ 1 1#1
  let main_v7 : IVec S_ 1 := (fun x v => Host.reduce IntOp.andi x v reducesTo_S64x16384_S_d0_1 h_S_) main_v6 main_c_1
  let main_v8 : IVec S_ 1 := andi main_v3 main_v7
  let main_v9 : FVec F S16384x2048 .f32 := Host.absf main_arg3
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S64x2048 .f32 := mulf main_arg0 main_arg0
  let main_cst_4 : FVec F S_ .f32 := constant S_ .f32 0x00000000#32
  let main_v15 : FVec F S64 .f32 := (fun x v => Host.reduceAdd x v reducesTo_S64x2048_S64_d1 h_S_) main_v14 main_cst_4
  let main_cst_5 : FVec F S_ .f32 := constant S_ .f32 0x00000000#32
  fn_part1 (F := F) main_v13 main_v15 main_cst_5
-- ==== Kernel.lean ====
abbrev S64x2048 : Shape := ⟨2, ![64, 2048]⟩
abbrev S64x16384 : Shape := ⟨2, ![64, 16384]⟩
abbrev S64 : Shape := ⟨1, ![64]⟩
abbrev S16384x2048 : Shape := ⟨2, ![16384, 2048]⟩
abbrev S1x1 : Shape := ⟨2, ![1, 1]⟩
abbrev S1024x2048 : Shape := ⟨2, ![1024, 2048]⟩
abbrev S64x1 : Shape := ⟨2, ![64, 1]⟩
abbrev S64x1024 : Shape := ⟨2, ![64, 1024]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S64x16384, .f32⟩
  | .hbm, ⟨2, _⟩ => ⟨S64, .i32⟩
  | .hbm, ⟨3, _⟩ => ⟨S16384x2048, .f32⟩
  | .hbm, ⟨4, _⟩ => ⟨S1x1, .f32⟩
  | .hbm, ⟨5, _⟩ => ⟨S_, .f32⟩
  | .local _ .vmem, ⟨0, _⟩ => ⟨S64x2048, .f32⟩
  | .local _ .vmem, ⟨1, _⟩ => ⟨S64x16384, .f32⟩
  | .local _ .vmem, ⟨2, _⟩ => ⟨S1024x2048, .f32⟩
  | .local _ .vmem, ⟨3, _⟩ => ⟨S1024x2048, .f32⟩
  | .local _ .vmem, ⟨4, _⟩ => ⟨S1x1, .f32⟩
  | .local _ .vmem, ⟨5, _⟩ => ⟨S64x16384, .f32⟩
  | .local _ .vmem, ⟨6, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1024_i32 : BitVec 32 := 1024#32
  let v10 : BitVec 32 := Scalar.muli arg0 c1024_i32
  v10
def k0_off1 (i : grid0.Coords) : Fin 2 → Nat :=
  let c0_5 : Index := 0#32
  let arg0 : BitVec 32 := BitVec.ofNat 32 (i 0).val
  let c1024_i32 : BitVec 32 := 1024#32
  let v10 : BitVec 32 := Scalar.muli arg0 c1024_i32
  let v11 : BitVec 32 := v10
  let v12 : Index := Scalar.indexCast v11
  ![0, v12.toNat]
def k0_cond2 (i : grid0.Coords) : BitVec 1 :=
  let arg0 : BitVec 32 := BitVec.ofNat 32 (i 0).val
  let c15_i32 : BitVec 32 := 15#32
  let v16 : BitVec 1 := Scalar.cmpi .eq arg0 c15_i32
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S64x2048_S64x2048_0_0 : ∀ a, (![0, 0] : Fin 2 → Nat) a + S64x2048.size a ≤ S64x2048.size a
  h_S64x2048 : 0 < S64x2048.numel
  reduces_S64x2048_S64 : S64x2048.Reduces [1] S64
  shapeCasts_S64_S64x1 : S64.ShapeCasts S64x1
  broadcasts_S64x1_S64x2048 : S64x1.Broadcasts S64x2048
  shapeCasts_S64x2048_S64x2048 : S64x2048.ShapeCasts S64x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  h_S64x1024 : 0 < S64x1024.numel
  shapeCasts_S64x1024_S64x1024 : S64x1024.ShapeCasts S64x1024
  inb_S64x16384_S64x2048_0_0 : ∀ a, (![0, 0] : Fin 2 → Nat) a + S64x2048.size a ≤ S64x16384.size a
  inb_S64x16384_S64x2048_0_2048 : ∀ a, (![0, 2048] : Fin 2 → Nat) a + S64x2048.size a ≤ S64x16384.size a
  inb_S64x16384_S64x2048_0_4096 : ∀ a, (![0, 4096] : Fin 2 → Nat) a + S64x2048.size a ≤ S64x16384.size a
  inb_S64x16384_S64x2048_0_6144 : ∀ a, (![0, 6144] : Fin 2 → Nat) a + S64x2048.size a ≤ S64x16384.size a
  inb_S64x16384_S64x2048_0_8192 : ∀ a, (![0, 8192] : Fin 2 → Nat) a + S64x2048.size a ≤ S64x16384.size a
  inb_S64x16384_S64x2048_0_10240 : ∀ a, (![0, 10240] : Fin 2 → Nat) a + S64x2048.size a ≤ S64x16384.size a
  inb_S64x16384_S64x2048_0_12288 : ∀ a, (![0, 12288] : Fin 2 → Nat) a + S64x2048.size a ≤ S64x16384.size a
  inb_S64x16384_S64x2048_0_14336 : ∀ a, (![0, 14336] : Fin 2 → Nat) a + S64x2048.size a ≤ S64x16384.size a
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S64x2048_S1024x2048_S64x1024_1_1_0_0_n_n_wf : DotDims.WF S64x2048 S1024x2048 S64x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S64x1024.size a ≤ S64x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S64x16384.size a
  hwx0_1 : ∀ i : grid0.Coords, EltTy.bits .f32 = 32 ∨ (Rect.block (s := S64x16384) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x2048 : Shape := ⟨2, ![64, 2048]⟩
abbrev S64x16384 : Shape := ⟨2, ![64, 16384]⟩
abbrev S64 : Shape := ⟨1, ![64]⟩
abbrev S16384x2048 : Shape := ⟨2, ![16384, 2048]⟩
abbrev S_ : Shape := ⟨0, ![]⟩
abbrev S64x1 : Shape := ⟨2, ![64, 1]⟩
abbrev S2048x16384 : Shape := ⟨2, ![2048, 16384]⟩

abbrev nBuf : Space → Nat
  | .hbm => 51
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x16384, .f32⟩
  | .hbm, ⟨2, _⟩ => ⟨S64, .i32⟩
  | .hbm, ⟨3, _⟩ => ⟨S16384x2048, .f32⟩
  | .hbm, ⟨4, _⟩ => ⟨S64x2048, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S64x2048, .f32⟩
  | .hbm, ⟨10, _⟩ => ⟨S64x2048, .f32⟩
  | .hbm, ⟨11, _⟩ => ⟨S2048x16384, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x16384, .f32⟩
  | .hbm, ⟨23, _⟩ => ⟨S64x16384, .f32⟩
  | .hbm, ⟨24, _⟩ => ⟨S64x16384, .f32⟩
  | .hbm, ⟨25, _⟩ => ⟨S_, .f32⟩
  | .hbm, ⟨26, _⟩ => ⟨S64, .f32⟩
  | .hbm, ⟨27, _⟩ => ⟨S64x1, .f32⟩
  | .hbm, ⟨28, _⟩ => ⟨S64x16384, .f32⟩
  | .hbm, ⟨29, _⟩ => ⟨S64x16384, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x16384, .f32⟩
  | .hbm, ⟨37, _⟩ => ⟨S64x16384, .f32⟩
  | .hbm, ⟨38, _⟩ => ⟨S64x16384, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S64x1, .f32⟩
  | .hbm, ⟨43, _⟩ => ⟨S64x16384, .f32⟩
  | .hbm, ⟨44, _⟩ => ⟨S64x16384, .f32⟩
  | .hbm, ⟨45, _⟩ => ⟨S64x16384, .f32⟩
  | .hbm, ⟨46, _⟩ => ⟨S64x16384, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩

abbrev nD : Nat := 1
abbrev τ : Topo := Topo.v7x

variable {F : FTy → Type} [FloatOps F]

class Facts₀ : Prop where
  reducesTo_S64x2048_S64_d1 : S64x2048.ReducesTo [1] S64
  h_S_ : 0 < S_.numel
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  transposes_S16384x2048_S2048x16384_1_0 : S16384x2048.Transposes [1, 0] S2048x16384
  bcast_S_S64x16384 : S_.BroadcastsInDim S64x16384 (![] : Fin 0 → Fin S64x16384.rank)
  reducesTo_S64x16384_S64_d1 : S64x16384.ReducesTo [1] S64
  bcast_S_S64 : S_.BroadcastsInDim S64 (![] : Fin 0 → Fin S64.rank)
  bcast_S64x1_S64x16384_0_1 : S64x1.BroadcastsInDim S64x16384 (![0, 1] : Fin 2 → Fin S64x16384.rank)
  reducesTo_S64x16384_S_d0_1 : S64x16384.ReducesTo [0, 1] S_
  dot_S64x2048_S2048x16384_S64x16384_1_0_0_1_n_n_wf : DotDims.WF S64x2048 S2048x16384 S64x16384 [1] [0] [0] [1] [] []

variable [Facts₀]

def dot_S64x2048_S2048x16384_S64x16384_1_0_0_1_n_n : DotDims S64x2048 S2048x16384 S64x16384 where
  lhsContracting := [1]
  rhsContracting := [0]
  lhsNonContracting := [0]
  rhsNonContracting := [1]
  lhsBatch := []
  rhsBatch := []
  wf := dot_S64x2048_S2048x16384_S64x16384_1_0_0_1_n_n_wf

class Facts : Prop extends Facts₀ where

variable [Facts]
-- ==== Proof.KbCases.lean ====
/-
  The kernel body's two conditionals over the grid, and the memrefs it is called with.

  The grid has 16 points along the bank's columns. The first conditional holds at the first point only (the input
  rows are scaled to unit length and kept in the second scratch); the second holds at the last point only (the loss
  is reduced from the first scratch, which by then holds every column tile of the logits). Between them every point
  stores its own tile of 1024 logit columns into the first scratch. The one output window, a single number, is
  idle at every point but the last and written back there.
-/
import proofs.«107741_j23519240913060_1_alg».proof.Proof.Gen.Kernel.Frame
import proofs.«107741_j23519240913060_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test on the grid coordinate: "this is point 0". -/
abbrev isFirst (i : grid0.Coords) : Prop :=
  (Scalar.cmpi .ne (Scalar.extui (Scalar.cmpi .eq (BitVec.ofNat 32 (i 0).val) 0#32)) 0#32) = 1#1

/-- The second conditional's test: "this is point 15". -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)

theorem isLast_iff : ∀ t : Fin cfg0.N, isLast (grid0.coords t) ↔ t.val = 15 :=
  (by decide +kernel : ∀ t : Fin grid0.N, isLast (grid0.coords t) ↔ t.val = 15)

theorem lt16 (t : Fin cfg0.N) : t.val < 16 := lt_of_lt_of_eq t.isLt (show cfg0.N = 16 from N_0)

/-- The three input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle exactly off the last point. -/
theorem idle3_iff : ∀ t : Fin cfg0.N, cfg0.idle 3 (grid0.coords t) = true ↔ t.val ≠ 15 :=
  (by decide +kernel : ∀ t : Fin grid0.N, cfg0.idle 3 (grid0.coords t) = true ↔ t.val ≠ 15)

/-- Each window's current staging memref at point t, at its literal type, and its wholeness. -/
abbrev ms0 (t : Fin cfg0.N) : Memref sig .tc .vmem S64x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x16384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The two scratch operands: the logits, [64,16384], and the unit rows, [64,2048]. -/
abbrev scL : Memref sig .tc .vmem S64x16384 .f32 := Memref.whole cc0_scratch0
abbrev scX : Memref sig .tc .vmem S64x2048 .f32 := Memref.whole cc0_scratch1
theorem hscL : (scL).IsWhole := Memref.isWhole_whole _
theorem hscX : (scX).IsWhole := Memref.isWhole_whole _

/-- What the launch hands the body besides the windows: both scratch buffers at some contents and the generator
    register at some state. -/
theorem phiA_eq (c : Dev nD) :
    (Pipeline.ΦA spec0 c : sProp 𝕄)
      = iprop(iprop((∃ d, owns (c : Thread nD τ) scL fullShare d) ∗ (∃ d, owns (c : Thread nD τ) scX fullShare d)) ∗ (∃ r, prngReg c r)) := by
  unfold Pipeline.ΦA; rw [scopedRest0_eq]; simp only [scL, scX, owns_whole]; try rfl

end Cert.Kernel.Body

end
-- ==== Proof.KbRunFirst.lean ====
/-
  The kernel body run at the FIRST grid point: the rows of the input are scaled to unit length and stored, whole, into the second scratch; then the point's tile of logits goes into its slice of the first scratch. The output buffer is not touched.
  The first scratch is taken at ANY contents xs0 and handed back with the point's one store written over them; the
  stores each buffer ends with are found by running the body, not transcribed.
-/
import proofs.«107741_j23519240913060_1_alg».proof.Proof.KbCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : isFirst i) (hc1 : ¬isLast i)
    (x0 : Vec F S64x2048 .f32) (x1 : Vec F S64x16384 .f32) (x2 : Vec F S1024x2048 .f32) (x3 : Vec F S1x1 .f32) (xs0 : Vec F S64x16384 .f32) :
    Σ' (LS0 : List (View.Piece (Elt F) S64x16384 .f32)), { LS1 : List (View.Piece (Elt F) S64x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) (harg5.unread xs0) LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg1 harg1 arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexact HS0
    iexists _; iexact HS1

end Cert.Kernel.Body

end
-- ==== Proof.KbRunMid.lean ====
/-
  The kernel body run at a MIDDLE grid point: the point's tile of logits, computed from the unit rows kept in the second scratch and the point's block of the bank, goes into its slice of the first scratch. Nothing else is written.
  The first scratch is taken at ANY contents xs0 and handed back with the point's one store written over them; the
  stores each buffer ends with are found by running the body, not transcribed.
-/
import proofs.«107741_j23519240913060_1_alg».proof.Proof.KbRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : ¬isLast i)
    (x0 : Vec F S64x2048 .f32) (x1 : Vec F S64x16384 .f32) (x2 : Vec F S1024x2048 .f32) (x3 : Vec F S1x1 .f32) (xs0 : Vec F S64x16384 .f32) (xs1 : Vec F S64x2048 .f32) :
    { LS0 : List (View.Piece (Elt F) S64x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) (harg5.unread xs0) LS0) ∗ owns (c : Thread nD τ) arg6 fullShare xs1) -∗ K ⟨⟩))
          ⊢ wp frame (wpE (defs₀ (F := F)) Variants.none c none) E (cc0__kernel i arg1 harg1 arg2 harg2 arg3 harg3 arg4 harg4 arg5 harg5 arg6 harg6) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexact HS0
    iexists _; isplitr; · ipureintro; exact harg6.read_unread _
    iexact HS1

end Cert.Kernel.Body

end
-- ==== Proof.KbRunLast.lean ====
/-
  The kernel body run at the LAST grid point: after the point's tile of logits has gone into its slice of the first scratch, the loss is reduced from that scratch and the targets in three passes over eight column tiles, and the one number is stored into the output buffer.
  The first scratch is taken at ANY contents xs0 and handed back with the point's one store written over them; the
  stores each buffer ends with are found by running the body, not transcribed.
-/
import proofs.«107741_j23519240913060_1_alg».proof.Proof.KbRunMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : isLast i)
    (x0 : Vec F S64x2048 .f32) (x1 : Vec F S64x16384 .f32) (x2 : Vec F S1024x2048 .f32) (xs0 : Vec F S64x16384 .f32) (xs1 : Vec F S64x2048 .f32) :
    Σ' (L3 : List (View.Piece (Elt F) S1x1 .f32)), { LS0 : List (View.Piece (Elt F) S64x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread xs0) LS0) ∗ owns (c : Thread nD τ) arg6 fullShare xs1) -∗ K ⟨⟩))
          ⊢ wp frame (wpE (defs₀ (F := F)) Variants.none c none) E (cc0__kernel i arg1 harg1 arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexact HS0
    iexists _; isplitr; · ipureintro; exact harg6.read_unread _
    iexact HS1

end Cert.Kernel.Body

end
-- ==== Proof.KbLoss.lean ====
/-
  The last grid point's arithmetic as ONE pure term.

  On the last grid point the kernel reads eight column tiles (64 rows by 2048 columns each) of the
  logits and of the targets three times over: a pass of running row maxima, a pass of running row sums
  of exp (entry - row maximum), and a pass adding up -(exp (target - target log-sum-exp)) * (logit -
  logit log-sum-exp) over each row; the 64 row totals are then added and divided by 64.  Here that
  whole computation is written as the composition of its pure pieces, with tile b of the logits
  called `s b` and tile b of the targets called `t b`.
-/
import proofs.«107741_j23519240913060_1_alg».proof.Proof.Gen.Kernel.Skeleton

noncomputable section

namespace Cert.Kernel.Body

open Idealize.ShloMosaic Idealize.SL.Sem Cert.Kernel Cert.Kernel.Gen

/-- The loss as a function of the eight logit tiles `s` and the eight target tiles `t`: the three
   passes over the tiles, then the sum over rows and the division by the batch size. -/
noncomputable def lossTiles {F : FTy → Type} [FloatOps F]
    (s t : Fin 8 → Vec F S64x2048 .f32) : FVec F S1x1 .f32 :=
  -- pass 1: running row maxima of the logits (v49, v81) and of the targets (v52, v84)
  have v49 : FVec F S64x1 .f32 := k0_pay4 (s 0) (s 1) (s 2) (s 3)
  have v52 : FVec F S64x1 .f32 := k0_pay5 (t 0) (t 1) (t 2) (t 3)
  have v81 : FVec F S64x1 .f32 := k0_pay6 v49 (s 4) (s 5) (s 6) (s 7)
  have v84 : FVec F S64x1 .f32 := k0_pay7 v52 (t 4) (t 5) (t 6) (t 7)
  -- pass 2: running row sums of exp (entry - row maximum), from zero
  have v85 : FVec F S64x1 .f32 := k0_pay8 (F := F)
  have v86 : FVec F S64x1 .f32 := k0_pay9 (F := F)
  have v122 : FVec F S64x1 .f32 := k0_pay10 v81 v85 (s 0) (s 1) (s 2)
  have v128 : FVec F S64x1 .f32 := k0_pay11 v84 v86 (t 0) (t 1) (t 2)
  have v164 : FVec F S64x1 .f32 := k0_pay12 v81 v122 (s 3) (s 4) (s 5)
  have v170 : FVec F S64x1 .f32 := k0_pay13 v84 v128 (t 3) (t 4) (t 5)
  -- the log-sum-exp of each row: maximum + log (sum)
  have v200 : FVec F S64x1 .f32 := k0_pay14 v81 v164 (s 6) (s 7)
  have v202 : FVec F S64x1 .f32 := k0_pay15 v84 v170 (t 6) (t 7)
  -- pass 3: running row totals of the summands, from zero
  have v203 : FVec F S64x1 .f32 := k0_pay16 (F := F)
  have v207 : FVec F S64x2048 .f32 := k0_pay17 v81 v164 (s 6) (s 7) (s 0)
  have v212 : FVec F S64x2048 .f32 := k0_pay18 v84 v170 (t 6) (t 7) (t 0)
  have v242 : FVec F S64x1 .f32 := k0_pay19 v200 v202 v203 v207 v212 (s 1) (t 1) (s 2) (t 2)
  have v253 : FVec F S64 .f32 := k0_pay20 v200 v202 (s 3) (t 3)
  have v294 : FVec F S64x1 .f32 := k0_pay21 v200 v202 v242 v253 (s 4) (t 4) (s 5) (t 5) (s 6) (t 6)
  -- the last tile, the sum over the 64 rows and the division by the batch size
  k0_pay3 v200 v202 v294 (s 7) (t 7)

end Cert.Kernel.Body

end
-- ==== Proof.KbPieces.lean ====
/-
  What the three runs of the body found, in closed form.

  Every point stores ONE piece into the logits scratch: through the point's 64 x 1024 slice, the product of the
  unit rows with the point's block of the bank, scaled. The first point also stores the unit rows, whole, into
  the second scratch. The last point stores the loss, whole, into the output buffer: the three passes over eight
  column tiles, each tile of the logits read back from the scratch AFTER the point's own store.
-/
import proofs.«107741_j23519240913060_1_alg».proof.Proof.KbRunLast
import proofs.«107741_j23519240913060_1_alg».proof.Proof.KbLoss
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeros2 : (![0, 0] : Fin 2 → Nat) = fun _ => 0 := by funext a; fin_cases a <;> rfl

/-- The point's slice of the logits scratch: 64 rows, the point's 1024 columns. -/
abbrev sliceAt (i : grid0.Coords) : Rect S64x16384 := Rect.unit (s := S64x16384) (k0_off1 i) S64x1024.size (k0_off1_inb i)

/-- Column tile b of a [64,16384] array X: its 64 rows, columns b*2048 to b*2048 + 2047. -/
def tilesOf (X : Vec F S64x16384 .f32) : Fin 8 → Vec F S64x2048 .f32
  | 0 => View.ld X (Rect.unit (s := S64x16384) ![0, 0] S64x2048.size inb_S64x16384_S64x2048_0_0)
  | 1 => View.ld X (Rect.unit (s := S64x16384) ![0, 2048] S64x2048.size inb_S64x16384_S64x2048_0_2048)
  | 2 => View.ld X (Rect.unit (s := S64x16384) ![0, 4096] S64x2048.size inb_S64x16384_S64x2048_0_4096)
  | 3 => View.ld X (Rect.unit (s := S64x16384) ![0, 6144] S64x2048.size inb_S64x16384_S64x2048_0_6144)
  | 4 => View.ld X (Rect.unit (s := S64x16384) ![0, 8192] S64x2048.size inb_S64x16384_S64x2048_0_8192)
  | 5 => View.ld X (Rect.unit (s := S64x16384) ![0, 10240] S64x2048.size inb_S64x16384_S64x2048_0_10240)
  | 6 => View.ld X (Rect.unit (s := S64x16384) ![0, 12288] S64x2048.size inb_S64x16384_S64x2048_0_12288)
  | 7 => View.ld X (Rect.unit (s := S64x16384) ![0, 14336] S64x2048.size inb_S64x16384_S64x2048_0_14336)

/-- The first point leaves the unit rows, whole, in the second scratch, -/
theorem runFirst_unit (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : isFirst i) (hc1 : ¬isLast i)
    (x0 : Vec F S64x2048 .f32) (x1 : Vec F S64x16384 .f32) (x2 : Vec F S1024x2048 .f32) (x3 : Vec F S1x1 .f32) (xs0 : Vec F S64x16384 .f32) :
    (runFirst c i arg1 harg1 arg2 harg2 arg3 harg3 arg4 harg4 arg5 harg5 arg6 harg6 hc0 hc1 x0 x1 x2 x3 xs0).2.1
      = [⟨Rect.unit (s := S64x2048) ![0, 0] S64x2048.size inb_S64x2048_S64x2048_0_0, k0_pay1 x0⟩] := by
  unfold runFirst; dsimp only; sl_unfold_run_names
  simp only [View.readAt_eq_ld, harg1.read_unread, View.ld_unit_zero (S := S64x2048) zeros2]
  try rfl

/-- and its tile of logits, computed from them, in its slice of the first. -/
theorem runFirst_tile (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : isFirst i) (hc1 : ¬isLast i)
    (x0 : Vec F S64x2048 .f32) (x1 : Vec F S64x16384 .f32) (x2 : Vec F S1024x2048 .f32) (x3 : Vec F S1x1 .f32) (xs0 : Vec F S64x16384 .f32) :
    (runFirst c i arg1 harg1 arg2 harg2 arg3 harg3 arg4 harg4 arg5 harg5 arg6 harg6 hc0 hc1 x0 x1 x2 x3 xs0).1 = [⟨sliceAt i, k0_pay2 (k0_pay1 x0) x2⟩] := by
  unfold runFirst; dsimp only; sl_unfold_run_names
  simp only [View.readAt_eq_ld, harg1.read_unread, harg3.read_unread, View.ld_unit_zero (S := S64x2048) zeros2,
    View.ld_unit_zero (S := S1024x2048) zeros2, View.readCov_unit_zero (S := S64x2048) _ zeros2]
  try rfl

/-- A middle point leaves its tile of logits, computed from the unit rows it finds, in its slice. -/
theorem runMid_tile (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : ¬isLast i)
    (x0 : Vec F S64x2048 .f32) (x1 : Vec F S64x16384 .f32) (x2 : Vec F S1024x2048 .f32) (x3 : Vec F S1x1 .f32) (xs0 : Vec F S64x16384 .f32) (xs1 : Vec F S64x2048 .f32) :
    (runMid c i arg1 harg1 arg2 harg2 arg3 harg3 arg4 harg4 arg5 harg5 arg6 harg6 hc0 hc1 x0 x1 x2 x3 xs0 xs1).1 = [⟨sliceAt i, k0_pay2 xs1 x2⟩] := by
  unfold runMid; dsimp only; sl_unfold_run_names
  simp only [View.readAt_eq_ld, harg6.read_unread, harg3.read_unread, View.ld_unit_zero (S := S64x2048) zeros2,
    View.ld_unit_zero (S := S1024x2048) zeros2]
  try rfl

/-- So does the last point, -/
theorem runLast_tile (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : isLast i)
    (x0 : Vec F S64x2048 .f32) (x1 : Vec F S64x16384 .f32) (x2 : Vec F S1024x2048 .f32) (xs0 : Vec F S64x16384 .f32) (xs1 : Vec F S64x2048 .f32) :
    (runLast c i arg1 harg1 arg2 harg2 arg3 harg3 arg4 harg4 arg5 harg5 arg6 harg6 hc0 hc1 x0 x1 x2 xs0 xs1).2.1 = [⟨sliceAt i, k0_pay2 xs1 x2⟩] := by
  unfold runLast; dsimp only; sl_unfold_run_names
  simp only [View.readAt_eq_ld, harg6.read_unread, harg3.read_unread, View.ld_unit_zero (S := S64x2048) zeros2,
    View.ld_unit_zero (S := S1024x2048) zeros2]
  try rfl

/-- and it leaves in the output buffer the loss of the scratch's contents AFTER that store and of the targets,
    tile by tile. -/
theorem runLast_loss (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : isLast i)
    (x0 : Vec F S64x2048 .f32) (x1 : Vec F S64x16384 .f32) (x2 : Vec F S1024x2048 .f32) (xs0 : Vec F S64x16384 .f32) (xs1 : Vec F S64x2048 .f32) :
    (runLast c i arg1 harg1 arg2 harg2 arg3 harg3 arg4 harg4 arg5 harg5 arg6 harg6 hc0 hc1 x0 x1 x2 xs0 xs1).1
      = [⟨Rect.unit (s := S1x1) ![0, 0] S1x1.size inb_S1x1_S1x1_0_0,
          Cert.Kernel.Body.lossTiles (tilesOf (arg5.view.read (Elt F) (arg5.view.writes (Elt F) (harg5.unread xs0) [⟨sliceAt i, k0_pay2 xs1 x2⟩])))
            (tilesOf x1)⟩] := by
  unfold runLast; dsimp only; sl_unfold_run_names
  simp only [View.readAt_eq_ld, harg6.read_unread, harg3.read_unread, harg2.read_unread, View.ld_unit_zero (S := S64x2048) zeros2,
    View.ld_unit_zero (S := S1024x2048) zeros2]
  rfl

end Cert.Kernel.Body

end
-- ==== Proof.KbDefs.lean ====
/-
  The values the kernel keeps and produces, named from the argument arrays.

  unitRows  — the input's rows scaled to unit length: what the first point keeps in the second scratch.
  tileAt t  — point t's 64 x 1024 tile of logits: the unit rows against the point's block of the bank, scaled.
  logitArr  — the [64,16384] array whose slice at every point t is tileAt t: the logits scratch after the last store.
  outVal    — the loss of that array and the targets: what the last point stores into the output buffer.
-/
import proofs.«107741_j23519240913060_1_alg».proof.Proof.KbPieces
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- The first and the last grid point. -/
abbrev tFirst : Fin cfg0.N := t0_0
abbrev tLast : Fin cfg0.N := t0_15

/-- The input's rows scaled to unit length. -/
def unitRows (c : Dev nD) : Vec F S64x2048 .f32 := k0_pay1 (iblk m c 0 tFirst)

/-- Point t's tile of logits. -/
def tileAt (c : Dev nD) (t : Fin cfg0.N) : Vec F S64x1024 .f32 := k0_pay2 (unitRows m c) (iblk m c 2 t)

/-- Column j of the logits belongs to point j / 1024, at local column j % 1024. -/
def pointOf (j : Fin 16384) : Fin cfg0.N := ⟨j.val / 1024, by rw [show cfg0.N = 16 from N_0]; omega⟩
def localOf (j : Fin 16384) : Fin 1024 := ⟨j.val % 1024, Nat.mod_lt _ (by decide)⟩

/-- The whole logits array: at (r, j), point (j / 1024)'s tile at (r, j % 1024). -/
def logitArr (c : Dev nD) : Vec F S64x16384 .f32 :=
  fun y => tileAt m c (pointOf (y 1)) (ix2 (y 0) (localOf (y 1)))

/-- The loss of the logits array and the targets, tile by tile: the one number the kernel produces. -/
def outVal (c : Dev nD) : Vec F S1x1 .f32 :=
  Cert.Kernel.Body.lossTiles (tilesOf (logitArr m c)) (tilesOf (iblk m c 1 tLast))

end Cert.Kernel.Body

end
-- ==== Proof.KbData.lean ====
/-
  The proof data of the one pipeline: what the scratch buffers hold from point to point, and what each window's
  staging buffer holds after the body.

  Before point t the logits scratch is "filled up to t": the slice of every earlier point holds that point's
  tile, and nothing is said of the rest (it is whatever the buffer held at launch). The second scratch holds the
  unit rows from the first point on. The input windows' buffers hold their blocks; the output's buffer matters
  only at the last point, where it holds the loss.
-/
import proofs.«107741_j23519240913060_1_alg».proof.Proof.KbDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slices of the logits scratch -/

/-- Point t's slice starts at row 0, column 1024 t. -/
theorem off_col : ∀ t : Fin cfg0.N, k0_off1 (grid0.coords t) 0 = 0 ∧ k0_off1 (grid0.coords t) 1 = t.val * 1024 :=
  (by decide +kernel : ∀ t : Fin grid0.N, k0_off1 (grid0.coords t) 0 = 0 ∧ k0_off1 (grid0.coords t) 1 = t.val * 1024)

/-- Cell (r, j) lies in the slice of point j / 1024, at (r, j % 1024). -/
theorem slice_cover (y : S64x16384.Idx) :
    (sliceAt (grid0.coords (pointOf (y 1)))).emb (ix2 (y 0) (localOf (y 1))) = y := by
  funext a
  apply Fin.ext
  rw [Rect.emb_apply]
  match a with
  | ⟨0, _⟩ =>
    show k0_off1 (grid0.coords (pointOf (y 1))) 0 + 1 * (y 0).val = (y 0).val
    rw [(off_col (pointOf (y 1))).1]; omega
  | ⟨1, _⟩ =>
    show k0_off1 (grid0.coords (pointOf (y 1))) 1 + 1 * ((y 1).val % 1024) = (y 1).val
    rw [(off_col (pointOf (y 1))).2]
    show (y 1).val / 1024 * 1024 + 1 * ((y 1).val % 1024) = (y 1).val
    omega

/-- A cell of one point's slice is in no other point's slice. -/
theorem slice_apart (t t' : Fin cfg0.N) (h : t' ≠ t) (y : S64x1024.Idx) :
    (sliceAt (grid0.coords t')).emb y ∉ (sliceAt (grid0.coords t)).set := by
  rw [Rect.mem_set_unit]
  intro hmem
  have h1 := hmem 1
  have e : (((sliceAt (grid0.coords t')).emb y) 1 : Nat) = k0_off1 (grid0.coords t') 1 + 1 * (y 1).val :=
    Rect.emb_apply (sliceAt (grid0.coords t')) y 1
  rw [(off_col t').2] at e
  rw [(off_col t).2, e] at h1
  have hy : (y 1).val < 1024 := (y 1).isLt
  have h2 : t.val * 1024 ≤ t'.val * 1024 + 1 * (y 1).val := h1.1
  have h3 : t'.val * 1024 + 1 * (y 1).val < t.val * 1024 + 1024 := h1.2
  have hne : t'.val ≠ t.val := Fin.val_ne_of_ne h
  omega

/-! ## Filled up to a point -/

/-- The slices of the first n points hold their tiles. -/
def Filled (c : Dev nD) (n : ℕ) (S : Vec F S64x16384 .f32) : Prop :=
  ∀ t : Fin cfg0.N, t.val < n → ∀ y : S64x1024.Idx, S ((sliceAt (grid0.coords t)).emb y) = tileAt m c t y

theorem filled_zero (c : Dev nD) (S : Vec F S64x16384 .f32) : Filled m c 0 S :=
  fun _ h => absurd h (Nat.not_lt_zero _)

/-- Storing point t's tile through its slice, over contents filled up to t, leaves them filled up to t + 1:
    the slice reads the tile, every earlier slice is untouched. -/
theorem filled_step (c : Dev nD) (t : Fin cfg0.N) (S : Vec F S64x16384 .f32)
    (arg5 : Memref sig .tc .vmem S64x16384 .f32) (harg5 : arg5.IsWhole) (hS : Filled m c t.val S) :
    Filled m c (t.val + 1)
      (arg5.view.read (Elt F) (arg5.view.writes (Elt F) (harg5.unread S) [⟨sliceAt (grid0.coords t), tileAt m c t⟩])) := by
  intro t' ht' y
  by_cases h : t' = t
  · subst h
    exact View.read_writes_cons_emb arg5.view (harg5.unread S) (sliceAt (grid0.coords t')) (tileAt m c t') [] y
  · have hlt : t'.val < t.val := by have := Fin.val_ne_of_ne h; omega
    rw [View.read_writes_apply_of_forall_not_mem arg5.view (harg5.unread S) _ _ (fun p hp => by
      rw [List.mem_singleton] at hp; subst hp; exact slice_apart t t' h y), harg5.read_unread]
    exact hS t' hlt y

/-- Contents filled up to the last point are the logits array. -/
theorem filled_all (c : Dev nD) (S : Vec F S64x16384 .f32) (hS : Filled m c 16 S) : S = logitArr m c := by
  funext y
  have h := hS (pointOf (y 1)) (lt16 _) (ix2 (y 0) (localOf (y 1)))
  rw [slice_cover y] at h
  exact h

/-! ## The invariant and the proof data -/

/-- Before point n: at launch, both scratch buffers at anything; afterwards the logits scratch filled up to n,
    the second scratch at the unit rows; the generator register at some state throughout. -/
def PhiS (c : Dev nD) : (n : ℕ) → n ≤ cfg0.N → sProp 𝕄
  | 0, _ => Pipeline.ΦA spec0 c
  | n + 1, _ => iprop(iprop((∃ S, ⌜Filled m c (n + 1) S⌝ ∗ owns (c : Thread nD τ) scL fullShare S) ∗ owns (c : Thread nD τ) scX fullShare (unitRows m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ S, ⌜Filled m c n S⌝ ∗ owns (c : Thread nD τ) scL fullShare S) ∗ owns (c : Thread nD τ) scX fullShare (unitRows m c)) ∗ (∃ r, prngReg c r)) := by
  cases n with
  | zero => exact absurd rfl hz
  | succ n => rfl

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outVal m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
/-- The output's buffer after the body, named at every point, read only at the last: the loss. -/
theorem after3 (c : Dev nD) (t : Fin cfg0.N) : (dats m 0 c).after 3 t = outVal m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The output window is written back at the last point only. -/
theorem noflush3 (t : Fin cfg0.N) (h : t.val ≠ 15) : (cfg0.win 3).flush t = false :=
  Bool.eq_false_iff.mpr fun hf => h (by have := (flush0_3 t).mp hf; have := lt16 t; omega)

theorem live3 (t : Fin cfg0.N) (h : t.val = 15) : cfg0.idle 3 (grid0.coords t) = false :=
  Bool.eq_false_iff.mpr fun hi => (idle3_iff t).mp hi h

end Cert.Kernel.Body

end
-- ==== Proof.KbBody.lean ====
/-
  The body obligation at every grid point, the launch, and the frame.

  At a point the pipeline hands the body its four staging buffers (the inputs at their blocks, the output at
  what it held) and the invariant's two scratch buffers. Which of the three cases the point is in is decided by
  its position; the case's run gives back the buffers with its stores written, and the invariant is
  re-established: the logits scratch is filled one slice further, the unit rows stay, and at the last point the
  output buffer holds the loss of the now complete logits array.
-/
import proofs.«107741_j23519240913060_1_alg».proof.Proof.KbData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A whole-shape store, alone, leaves its payload. -/
theorem read_whole_store {S : Shape} (hr : S.rank = 2) (v : Memref sig .tc .vmem S .f32)
    (f : v.view.ty.Contents (Elt F)) {off : Fin S.rank → Nat} (hz : off = fun _ => 0) (inb : ∀ a, off a + S.size a ≤ S.size a)
    (w : S.Idx → Elt F .f32) :
    v.view.read (Elt F) (v.view.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  have hN := lt16 t
  by_cases h0 : t.val = 0
  · -- the first point
    have hF : isFirst (grid0.coords t) := (isFirst_iff t).mpr h0
    have hL : ¬isLast (grid0.coords t) := fun h => by have := (isLast_iff t).mp h; omega
    have ht : t = tFirst := Fin.ext h0
    rw [Dat.leavesExact_idle (dats m 0 c) 3 t ((idle3_iff t).mpr (by omega)) (noflush3 t (by omega))]
    rw [PhiS_castSucc m c t, PhiS_zero m c _ _ h0, phiA_eq]
    iintro ⟨⟨⟨⟨%dL, HL⟩, ⟨%dX, HX⟩⟩, Hg⟩, Ho, ⟨%d0, H0⟩, ⟨%d1, H1⟩, ⟨%d2, H2⟩, ⟨%d3, H3⟩⟩
    iapply ((runFirst c (grid0.coords t) _ _ _ _ _ _ _ _ _ _ _ _ hF hL (iblk m c 0 t) (iblk m c 1 t) (iblk m c 2 t) ((dats m 0 c).before 3 t d3) dL).2.2 Set.univ _)
    isplitl [H0]; · iexact H0
    isplitl [H1]; · iexact H1
    isplitl [H2]; · iexact H2
    isplitl [H3]; · iexact H3
    isplitl [HL]; · iexact HL
    isplitl [HX]; · iexists _; iexact HX
    iintro ⟨H0, H1, H2, H3, HL, ⟨%fX, HX⟩⟩
    isplitl [HL HX Hg]
    · isplitl [HL HX]
      · isplitl [HL]
        · iexists _; isplitr; swap
          · iapply owns_intro; iexact HL
          · ipureintro
            rw [runFirst_tile]
            have hf := filled_step m c t dL scL hscL (h0 ▸ filled_zero m c dL)
            subst ht
            exact hf
        · unfold owns; iexists _; isplitr; swap; · iexact HX
          ipureintro
          rw [runFirst_unit, read_whole_store rfl scX _ zeros2]
          subst ht; rfl
      · iexact Hg
    isplitl [Ho]; · iexact Ho
    isplitl [H0]; · iexact H0
    isplitl [H1]; · iexact H1
    isplitl [H2]; · iexact H2
    iexists _; iexact H3
  · by_cases h1 : t.val = 15
    · -- the last point
      have hF : ¬isFirst (grid0.coords t) := fun h => h0 ((isFirst_iff t).mp h)
      have hL : isLast (grid0.coords t) := (isLast_iff t).mpr h1
      have ht : t = tLast := Fin.ext h1
      rw [show (dats m 0 c).leavesExact 3 t = owns (c : Thread nD τ) (ms3 t) fullShare ((dats m 0 c).after 3 t) from by
          unfold Dat.leavesExact; rw [live3 t h1], after3]
      rw [PhiS_castSucc m c t, PhiS_pos m c _ _ h0]
      iintro ⟨⟨⟨⟨%S, %hS, HL⟩, HX⟩, Hg⟩, Ho, ⟨%d0, H0⟩, ⟨%d1, H1⟩, ⟨%d2, H2⟩, ⟨%d3, H3⟩⟩
      iapply ((runLast c (grid0.coords t) _ _ _ _ _ _ _ _ _ _ _ _ hF hL (iblk m c 0 t) (iblk m c 1 t) (iblk m c 2 t) S (unitRows m c)).2.2 Set.univ _)
      isplitl [H0]; · iexact H0
      isplitl [H1]; · iexact H1
      isplitl [H2]; · iexact H2
      isplitl [H3]; · iexists _; iexact H3
      isplitl [HL]; · iexact HL
      isplitl [HX]; · iexact HX
      iintro ⟨H0, H1, H2, ⟨%f3, H3⟩, HL, HX⟩
      isplitl [HL HX Hg]
      · isplitl [HL HX]
        · isplitl [HL]
          · iexists _; isplitr; swap
            · iapply owns_intro; iexact HL
            · ipureintro
              rw [runLast_tile]
              exact filled_step m c t S scL hscL hS
          · iexact HX
        · iexact Hg
      isplitl [Ho]; · iexact Ho
      isplitl [H0]; · iexact H0
      isplitl [H1]; · iexact H1
      isplitl [H2]; · iexact H2
      unfold owns; iexists _; isplitr; swap; · iexact H3
      ipureintro
      rw [runLast_loss, read_whole_store rfl (ms3 t) _ zeros2]
      have hfill := filled_step m c t S scL hscL hS
      rw [show t.val + 1 = 16 from by omega] at hfill
      rw [show (k0_pay2 (unitRows m c) (iblk m c 2 t)) = tileAt m c t from rfl, filled_all m c _ hfill]
      subst ht; rfl
    · -- a middle point
      have hF : ¬isFirst (grid0.coords t) := fun h => h0 ((isFirst_iff t).mp h)
      have hL : ¬isLast (grid0.coords t) := fun h => h1 ((isLast_iff t).mp h)
      rw [Dat.leavesExact_idle (dats m 0 c) 3 t ((idle3_iff t).mpr h1) (noflush3 t h1)]
      rw [PhiS_castSucc m c t, PhiS_pos m c _ _ h0]
      iintro ⟨⟨⟨⟨%S, %hS, HL⟩, HX⟩, Hg⟩, Ho, ⟨%d0, H0⟩, ⟨%d1, H1⟩, ⟨%d2, H2⟩, ⟨%d3, H3⟩⟩
      iapply ((runMid c (grid0.coords t) _ _ _ _ _ _ _ _ _ _ _ _ hF hL (iblk m c 0 t) (iblk m c 1 t) (iblk m c 2 t) ((dats m 0 c).before 3 t d3) S (unitRows m c)).2 Set.univ _)
      isplitl [H0]; · iexact H0
      isplitl [H1]; · iexact H1
      isplitl [H2]; · iexact H2
      isplitl [H3]; · iexact H3
      isplitl [HL]; · iexact HL
      isplitl [HX]; · iexact HX
      iintro ⟨H0, H1, H2, H3, HL, HX⟩
      isplitl [HL HX Hg]
      · isplitl [HL HX]
        · isplitl [HL]
          · iexists _; isplitr; swap
            · iapply owns_intro; iexact HL
            · ipureintro
              rw [runMid_tile]
              exact filled_step m c t S scL hscL hS
          · iexact HX
        · iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), phiA_eq]
  iintro ⟨⟨⟨%S, -, HL⟩, HX⟩, Hg⟩
  isplitl [HL HX]
  · isplitl [HL]
    · iexists _; iexact HL
    iexists _; iexact HX
  iexact Hg

set_option backward.isDefEq.respectTransparency.types false in
/-- Every weakly fair execution of the program terminates; in every final state each array of the pipeline holds
    what the proof data say was written back, and every other buffer what the host line after the region left. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KiCases.lean ====
/-
  The kernel body's two conditionals over the grid, and the memrefs it is called with.

  The grid has 16 points along the bank's columns. The first conditional holds at the first point only (the input
  rows are scaled to unit length and kept in the second scratch); the second holds at the last point only (the loss
  is reduced from the first scratch, which by then holds every column tile of the logits). Between them every point
  stores its own tile of 1024 logit columns into the first scratch. The one output window, a single number, is
  idle at every point but the last and written back there.
-/
import proofs.«107741_j23519240913060_1_alg».proof.Proof.Gen.KernelIdeal.Frame
import proofs.«107741_j23519240913060_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's test on the grid coordinate: "this is point 0". -/
abbrev isFirst (i : grid0.Coords) : Prop :=
  (Scalar.cmpi .ne (Scalar.extui (Scalar.cmpi .eq (BitVec.ofNat 32 (i 0).val) 0#32)) 0#32) = 1#1

/-- The second conditional's test: "this is point 15". -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)

theorem isLast_iff : ∀ t : Fin cfg0.N, isLast (grid0.coords t) ↔ t.val = 15 :=
  (by decide +kernel : ∀ t : Fin grid0.N, isLast (grid0.coords t) ↔ t.val = 15)

theorem lt16 (t : Fin cfg0.N) : t.val < 16 := lt_of_lt_of_eq t.isLt (show cfg0.N = 16 from N_0)

/-- The three input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle exactly off the last point. -/
theorem idle3_iff : ∀ t : Fin cfg0.N, cfg0.idle 3 (grid0.coords t) = true ↔ t.val ≠ 15 :=
  (by decide +kernel : ∀ t : Fin grid0.N, cfg0.idle 3 (grid0.coords t) = true ↔ t.val ≠ 15)

/-- Each window's current staging memref at point t, at its literal type, and its wholeness. -/
abbrev ms0 (t : Fin cfg0.N) : Memref sig .tc .vmem S64x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x16384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The two scratch operands: the logits, [64,16384], and the unit rows, [64,2048]. -/
abbrev scL : Memref sig .tc .vmem S64x16384 .f32 := Memref.whole cc0_scratch0
abbrev scX : Memref sig .tc .vmem S64x2048 .f32 := Memref.whole cc0_scratch1
theorem hscL : (scL).IsWhole := Memref.isWhole_whole _
theorem hscX : (scX).IsWhole := Memref.isWhole_whole _

/-- What the launch hands the body besides the windows: both scratch buffers at some contents and the generator
    register at some state. -/
theorem phiA_eq (c : Dev nD) :
    (Pipeline.ΦA spec0 c : sProp 𝕄)
      = iprop(iprop((∃ d, owns (c : Thread nD τ) scL fullShare d) ∗ (∃ d, owns (c : Thread nD τ) scX fullShare d)) ∗ (∃ r, prngReg c r)) := by
  unfold Pipeline.ΦA; rw [scopedRest0_eq]; simp only [scL, scX, owns_whole]; try rfl

end Cert.KernelIdeal.Body

end
-- ==== Proof.KiRunFirst.lean ====
/-
  The kernel body run at the FIRST grid point: the rows of the input are scaled to unit length and stored, whole, into the second scratch; then the point's tile of logits goes into its slice of the first scratch. The output buffer is not touched.
  The first scratch is taken at ANY contents xs0 and handed back with the point's one store written over them; the
  stores each buffer ends with are found by running the body, not transcribed.
-/
import proofs.«107741_j23519240913060_1_alg».proof.Proof.KiCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runFirst (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : isFirst i) (hc1 : ¬isLast i)
    (x0 : Vec F S64x2048 .f32) (x1 : Vec F S64x16384 .f32) (x2 : Vec F S1024x2048 .f32) (x3 : Vec F S1x1 .f32) (xs0 : Vec F S64x16384 .f32) :
    Σ' (LS0 : List (View.Piece (Elt F) S64x16384 .f32)), { LS1 : List (View.Piece (Elt F) S64x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) (harg5.unread xs0) LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg1 harg1 arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexact HS0
    iexists _; iexact HS1

end Cert.KernelIdeal.Body

end
-- ==== Proof.KiRunMid.lean ====
/-
  The kernel body run at a MIDDLE grid point: the point's tile of logits, computed from the unit rows kept in the second scratch and the point's block of the bank, goes into its slice of the first scratch. Nothing else is written.
  The first scratch is taken at ANY contents xs0 and handed back with the point's one store written over them; the
  stores each buffer ends with are found by running the body, not transcribed.
-/
import proofs.«107741_j23519240913060_1_alg».proof.Proof.KiRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runMid (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : ¬isLast i)
    (x0 : Vec F S64x2048 .f32) (x1 : Vec F S64x16384 .f32) (x2 : Vec F S1024x2048 .f32) (x3 : Vec F S1x1 .f32) (xs0 : Vec F S64x16384 .f32) (xs1 : Vec F S64x2048 .f32) :
    { LS0 : List (View.Piece (Elt F) S64x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) (harg5.unread xs0) LS0) ∗ owns (c : Thread nD τ) arg6 fullShare xs1) -∗ K ⟨⟩))
          ⊢ wp frame (wpE (defs₀ (F := F)) Variants.none c none) E (cc0__kernel i arg1 harg1 arg2 harg2 arg3 harg3 arg4 harg4 arg5 harg5 arg6 harg6) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexact HS0
    iexists _; isplitr; · ipureintro; exact harg6.read_unread _
    iexact HS1

end Cert.KernelIdeal.Body

end
-- ==== Proof.KiRunLast.lean ====
/-
  The kernel body run at the LAST grid point: after the point's tile of logits has gone into its slice of the first scratch, the loss is reduced from that scratch and the targets in three passes over eight column tiles, and the one number is stored into the output buffer.
  The first scratch is taken at ANY contents xs0 and handed back with the point's one store written over them; the
  stores each buffer ends with are found by running the body, not transcribed.
-/
import proofs.«107741_j23519240913060_1_alg».proof.Proof.KiRunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runLast (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : isLast i)
    (x0 : Vec F S64x2048 .f32) (x1 : Vec F S64x16384 .f32) (x2 : Vec F S1024x2048 .f32) (xs0 : Vec F S64x16384 .f32) (xs1 : Vec F S64x2048 .f32) :
    Σ' (L3 : List (View.Piece (Elt F) S1x1 .f32)), { LS0 : List (View.Piece (Elt F) S64x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread xs0) LS0) ∗ owns (c : Thread nD τ) arg6 fullShare xs1) -∗ K ⟨⟩))
          ⊢ wp frame (wpE (defs₀ (F := F)) Variants.none c none) E (cc0__kernel i arg1 harg1 arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexact HS0
    iexists _; isplitr; · ipureintro; exact harg6.read_unread _
    iexact HS1

end Cert.KernelIdeal.Body

end
-- ==== Proof.KvBDef.lean ====
/-
  The last grid point's arithmetic as ONE pure term.

  On the last grid point the kernel reads eight column tiles (64 rows by 2048 columns each) of the
  logits and of the targets three times over: a pass of running row maxima, a pass of running row sums
  of exp (entry - row maximum), and a pass adding up -(exp (target - target log-sum-exp)) * (logit -
  logit log-sum-exp) over each row; the 64 row totals are then added and divided by 64.  Here that
  whole computation is written as the composition of its pure pieces, with tile b of the logits
  called `s b` and tile b of the targets called `t b`.
-/
import proofs.«107741_j23519240913060_1_alg».proof.Proof.Gen.KernelIdeal.Skeleton

noncomputable section

namespace Cert.KvB

open Idealize.ShloMosaic Idealize.SL.Sem Cert.KernelIdeal Cert.KernelIdeal.Gen

/-- The loss as a function of the eight logit tiles `s` and the eight target tiles `t`: the three
   passes over the tiles, then the sum over rows and the division by the batch size. -/
noncomputable def lossTiles {F : FTy → Type} [FloatOps F] [Named F]
    (s t : Fin 8 → Vec F S64x2048 .f32) : FVec F S1x1 .f32 :=
  -- pass 1: running row maxima of the logits (v49, v81) and of the targets (v52, v84)
  have v49 : FVec F S64x1 .f32 := k0_pay4 (s 0) (s 1) (s 2) (s 3)
  have v52 : FVec F S64x1 .f32 := k0_pay5 (t 0) (t 1) (t 2) (t 3)
  have v81 : FVec F S64x1 .f32 := k0_pay6 v49 (s 4) (s 5) (s 6) (s 7)
  have v84 : FVec F S64x1 .f32 := k0_pay7 v52 (t 4) (t 5) (t 6) (t 7)
  -- pass 2: running row sums of exp (entry - row maximum), from zero
  have v85 : FVec F S64x1 .f32 := k0_pay8 (F := F)
  have v86 : FVec F S64x1 .f32 := k0_pay9 (F := F)
  have v122 : FVec F S64x1 .f32 := k0_pay10 v81 v85 (s 0) (s 1) (s 2)
  have v128 : FVec F S64x1 .f32 := k0_pay11 v84 v86 (t 0) (t 1) (t 2)
  have v164 : FVec F S64x1 .f32 := k0_pay12 v81 v122 (s 3) (s 4) (s 5)
  have v170 : FVec F S64x1 .f32 := k0_pay13 v84 v128 (t 3) (t 4) (t 5)
  -- the log-sum-exp of each row: maximum + log (sum)
  have v200 : FVec F S64x1 .f32 := k0_pay14 v81 v164 (s 6) (s 7)
  have v202 : FVec F S64x1 .f32 := k0_pay15 v84 v170 (t 6) (t 7)
  -- pass 3: running row totals of the summands, from zero
  have v203 : FVec F S64x1 .f32 := k0_pay16 (F := F)
  have v207 : FVec F S64x2048 .f32 := k0_pay17 v81 v164 (s 6) (s 7) (s 0)
  have v212 : FVec F S64x2048 .f32 := k0_pay18 v84 v170 (t 6) (t 7) (t 0)
  have v242 : FVec F S64x1 .f32 := k0_pay19 v200 v202 v203 v207 v212 (s 1) (t 1) (s 2) (t 2)
  have v253 : FVec F S64 .f32 := k0_pay20 v200 v202 (s 3) (t 3)
  have v294 : FVec F S64x1 .f32 := k0_pay21 v200 v202 v242 v253 (s 4) (t 4) (s 5) (t 5) (s 6) (t 6)
  -- the last tile, the sum over the 64 rows and the division by the batch size
  k0_pay3 v200 v202 v294 (s 7) (t 7)

end Cert.KvB

end
-- ==== Proof.KiPieces.lean ====
/-
  What the three runs of the body found, in closed form.

  Every point stores ONE piece into the logits scratch: through the point's 64 x 1024 slice, the product of the
  unit rows with the point's block of the bank, scaled. The first point also stores the unit rows, whole, into
  the second scratch. The last point stores the loss, whole, into the output buffer: the three passes over eight
  column tiles, each tile of the logits read back from the scratch AFTER the point's own store.
-/
import proofs.«107741_j23519240913060_1_alg».proof.Proof.KiRunLast
import proofs.«107741_j23519240913060_1_alg».proof.Proof.KvBDef
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem zeros2 : (![0, 0] : Fin 2 → Nat) = fun _ => 0 := by funext a; fin_cases a <;> rfl

/-- The point's slice of the logits scratch: 64 rows, the point's 1024 columns. -/
abbrev sliceAt (i : grid0.Coords) : Rect S64x16384 := Rect.unit (s := S64x16384) (k0_off1 i) S64x1024.size (k0_off1_inb i)

/-- Column tile b of a [64,16384] array X: its 64 rows, columns b*2048 to b*2048 + 2047. -/
def tilesOf (X : Vec F S64x16384 .f32) : Fin 8 → Vec F S64x2048 .f32
  | 0 => View.ld X (Rect.unit (s := S64x16384) ![0, 0] S64x2048.size inb_S64x16384_S64x2048_0_0)
  | 1 => View.ld X (Rect.unit (s := S64x16384) ![0, 2048] S64x2048.size inb_S64x16384_S64x2048_0_2048)
  | 2 => View.ld X (Rect.unit (s := S64x16384) ![0, 4096] S64x2048.size inb_S64x16384_S64x2048_0_4096)
  | 3 => View.ld X (Rect.unit (s := S64x16384) ![0, 6144] S64x2048.size inb_S64x16384_S64x2048_0_6144)
  | 4 => View.ld X (Rect.unit (s := S64x16384) ![0, 8192] S64x2048.size inb_S64x16384_S64x2048_0_8192)
  | 5 => View.ld X (Rect.unit (s := S64x16384) ![0, 10240] S64x2048.size inb_S64x16384_S64x2048_0_10240)
  | 6 => View.ld X (Rect.unit (s := S64x16384) ![0, 12288] S64x2048.size inb_S64x16384_S64x2048_0_12288)
  | 7 => View.ld X (Rect.unit (s := S64x16384) ![0, 14336] S64x2048.size inb_S64x16384_S64x2048_0_14336)

/-- The first point leaves the unit rows, whole, in the second scratch, -/
theorem runFirst_unit (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : isFirst i) (hc1 : ¬isLast i)
    (x0 : Vec F S64x2048 .f32) (x1 : Vec F S64x16384 .f32) (x2 : Vec F S1024x2048 .f32) (x3 : Vec F S1x1 .f32) (xs0 : Vec F S64x16384 .f32) :
    (runFirst c i arg1 harg1 arg2 harg2 arg3 harg3 arg4 harg4 arg5 harg5 arg6 harg6 hc0 hc1 x0 x1 x2 x3 xs0).2.1
      = [⟨Rect.unit (s := S64x2048) ![0, 0] S64x2048.size inb_S64x2048_S64x2048_0_0, k0_pay1 x0⟩] := by
  unfold runFirst; dsimp only; sl_unfold_run_names
  simp only [View.readAt_eq_ld, harg1.read_unread, View.ld_unit_zero (S := S64x2048) zeros2]
  try rfl

/-- and its tile of logits, computed from them, in its slice of the first. -/
theorem runFirst_tile (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : isFirst i) (hc1 : ¬isLast i)
    (x0 : Vec F S64x2048 .f32) (x1 : Vec F S64x16384 .f32) (x2 : Vec F S1024x2048 .f32) (x3 : Vec F S1x1 .f32) (xs0 : Vec F S64x16384 .f32) :
    (runFirst c i arg1 harg1 arg2 harg2 arg3 harg3 arg4 harg4 arg5 harg5 arg6 harg6 hc0 hc1 x0 x1 x2 x3 xs0).1 = [⟨sliceAt i, k0_pay2 (k0_pay1 x0) x2⟩] := by
  unfold runFirst; dsimp only; sl_unfold_run_names
  simp only [View.readAt_eq_ld, harg1.read_unread, harg3.read_unread, View.ld_unit_zero (S := S64x2048) zeros2,
    View.ld_unit_zero (S := S1024x2048) zeros2, View.readCov_unit_zero (S := S64x2048) _ zeros2]
  try rfl

/-- A middle point leaves its tile of logits, computed from the unit rows it finds, in its slice. -/
theorem runMid_tile (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : ¬isLast i)
    (x0 : Vec F S64x2048 .f32) (x1 : Vec F S64x16384 .f32) (x2 : Vec F S1024x2048 .f32) (x3 : Vec F S1x1 .f32) (xs0 : Vec F S64x16384 .f32) (xs1 : Vec F S64x2048 .f32) :
    (runMid c i arg1 harg1 arg2 harg2 arg3 harg3 arg4 harg4 arg5 harg5 arg6 harg6 hc0 hc1 x0 x1 x2 x3 xs0 xs1).1 = [⟨sliceAt i, k0_pay2 xs1 x2⟩] := by
  unfold runMid; dsimp only; sl_unfold_run_names
  simp only [View.readAt_eq_ld, harg6.read_unread, harg3.read_unread, View.ld_unit_zero (S := S64x2048) zeros2,
    View.ld_unit_zero (S := S1024x2048) zeros2]
  try rfl

/-- So does the last point, -/
theorem runLast_tile (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : isLast i)
    (x0 : Vec F S64x2048 .f32) (x1 : Vec F S64x16384 .f32) (x2 : Vec F S1024x2048 .f32) (xs0 : Vec F S64x16384 .f32) (xs1 : Vec F S64x2048 .f32) :
    (runLast c i arg1 harg1 arg2 harg2 arg3 harg3 arg4 harg4 arg5 harg5 arg6 harg6 hc0 hc1 x0 x1 x2 xs0 xs1).2.1 = [⟨sliceAt i, k0_pay2 xs1 x2⟩] := by
  unfold runLast; dsimp only; sl_unfold_run_names
  simp only [View.readAt_eq_ld, harg6.read_unread, harg3.read_unread, View.ld_unit_zero (S := S64x2048) zeros2,
    View.ld_unit_zero (S := S1024x2048) zeros2]
  try rfl

/-- and it leaves in the output buffer the loss of the scratch's contents AFTER that store and of the targets,
    tile by tile. -/
theorem runLast_loss (c : Dev nD) (i : grid0.Coords) (arg1 : Memref sig .tc .vmem S64x2048 .f32) (harg1 : arg1.IsWhole) (arg2 : Memref sig .tc .vmem S64x16384 .f32) (harg2 : arg2.IsWhole) (arg3 : Memref sig .tc .vmem S1024x2048 .f32) (harg3 : arg3.IsWhole) (arg4 : Memref sig .tc .vmem S1x1 .f32) (harg4 : arg4.IsWhole) (arg5 : Memref sig .tc .vmem S64x16384 .f32) (harg5 : arg5.IsWhole) (arg6 : Memref sig .tc .vmem S64x2048 .f32) (harg6 : arg6.IsWhole) (hc0 : ¬isFirst i) (hc1 : isLast i)
    (x0 : Vec F S64x2048 .f32) (x1 : Vec F S64x16384 .f32) (x2 : Vec F S1024x2048 .f32) (xs0 : Vec F S64x16384 .f32) (xs1 : Vec F S64x2048 .f32) :
    (runLast c i arg1 harg1 arg2 harg2 arg3 harg3 arg4 harg4 arg5 harg5 arg6 harg6 hc0 hc1 x0 x1 x2 xs0 xs1).1
      = [⟨Rect.unit (s := S1x1) ![0, 0] S1x1.size inb_S1x1_S1x1_0_0,
          Cert.KvB.lossTiles (tilesOf (arg5.view.read (Elt F) (arg5.view.writes (Elt F) (harg5.unread xs0) [⟨sliceAt i, k0_pay2 xs1 x2⟩])))
            (tilesOf x1)⟩] := by
  unfold runLast; dsimp only; sl_unfold_run_names
  simp only [View.readAt_eq_ld, harg6.read_unread, harg3.read_unread, harg2.read_unread, View.ld_unit_zero (S := S64x2048) zeros2,
    View.ld_unit_zero (S := S1024x2048) zeros2]
  rfl

end Cert.KernelIdeal.Body

end
-- ==== Proof.KiDefs.lean ====
/-
  The values the kernel keeps and produces, named from the argument arrays.

  unitRows  — the input's rows scaled to unit length: what the first point keeps in the second scratch.
  tileAt t  — point t's 64 x 1024 tile of logits: the unit rows against the point's block of the bank, scaled.
  logitArr  — the [64,16384] array whose slice at every point t is tileAt t: the logits scratch after the last store.
  outVal    — the loss of that array and the targets: what the last point stores into the output buffer.
-/
import proofs.«107741_j23519240913060_1_alg».proof.Proof.KiPieces
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ)

/-- The first and the last grid point. -/
abbrev tFirst : Fin cfg0.N := t0_0
abbrev tLast : Fin cfg0.N := t0_15

/-- The input's rows scaled to unit length. -/
def unitRows (c : Dev nD) : Vec F S64x2048 .f32 := k0_pay1 (iblk m c 0 tFirst)

/-- Point t's tile of logits. -/
def tileAt (c : Dev nD) (t : Fin cfg0.N) : Vec F S64x1024 .f32 := k0_pay2 (unitRows m c) (iblk m c 2 t)

/-- Column j of the logits belongs to point j / 1024, at local column j % 1024. -/
def pointOf (j : Fin 16384) : Fin cfg0.N := ⟨j.val / 1024, by rw [show cfg0.N = 16 from N_0]; omega⟩
def localOf (j : Fin 16384) : Fin 1024 := ⟨j.val % 1024, Nat.mod_lt _ (by decide)⟩

/-- The whole logits array: at (r, j), point (j / 1024)'s tile at (r, j % 1024). -/
def logitArr (c : Dev nD) : Vec F S64x16384 .f32 :=
  fun y => tileAt m c (pointOf (y 1)) (ix2 (y 0) (localOf (y 1)))

/-- The loss of the logits array and the targets, tile by tile: the one number the kernel produces. -/
def outVal (c : Dev nD) : Vec F S1x1 .f32 :=
  Cert.KvB.lossTiles (tilesOf (logitArr m c)) (tilesOf (iblk m c 1 tLast))

end Cert.KernelIdeal.Body

end
-- ==== Proof.KiData.lean ====
/-
  The proof data of the one pipeline: what the scratch buffers hold from point to point, and what each window's
  staging buffer holds after the body.

  Before point t the logits scratch is "filled up to t": the slice of every earlier point holds that point's
  tile, and nothing is said of the rest (it is whatever the buffer held at launch). The second scratch holds the
  unit rows from the first point on. The input windows' buffers hold their blocks; the output's buffer matters
  only at the last point, where it holds the loss.
-/
import proofs.«107741_j23519240913060_1_alg».proof.Proof.KiDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The slices of the logits scratch -/

/-- Point t's slice starts at row 0, column 1024 t. -/
theorem off_col : ∀ t : Fin cfg0.N, k0_off1 (grid0.coords t) 0 = 0 ∧ k0_off1 (grid0.coords t) 1 = t.val * 1024 :=
  (by decide +kernel : ∀ t : Fin grid0.N, k0_off1 (grid0.coords t) 0 = 0 ∧ k0_off1 (grid0.coords t) 1 = t.val * 1024)

/-- Cell (r, j) lies in the slice of point j / 1024, at (r, j % 1024). -/
theorem slice_cover (y : S64x16384.Idx) :
    (sliceAt (grid0.coords (pointOf (y 1)))).emb (ix2 (y 0) (localOf (y 1))) = y := by
  funext a
  apply Fin.ext
  rw [Rect.emb_apply]
  match a with
  | ⟨0, _⟩ =>
    show k0_off1 (grid0.coords (pointOf (y 1))) 0 + 1 * (y 0).val = (y 0).val
    rw [(off_col (pointOf (y 1))).1]; omega
  | ⟨1, _⟩ =>
    show k0_off1 (grid0.coords (pointOf (y 1))) 1 + 1 * ((y 1).val % 1024) = (y 1).val
    rw [(off_col (pointOf (y 1))).2]
    show (y 1).val / 1024 * 1024 + 1 * ((y 1).val % 1024) = (y 1).val
    omega

/-- A cell of one point's slice is in no other point's slice. -/
theorem slice_apart (t t' : Fin cfg0.N) (h : t' ≠ t) (y : S64x1024.Idx) :
    (sliceAt (grid0.coords t')).emb y ∉ (sliceAt (grid0.coords t)).set := by
  rw [Rect.mem_set_unit]
  intro hmem
  have h1 := hmem 1
  have e : (((sliceAt (grid0.coords t')).emb y) 1 : Nat) = k0_off1 (grid0.coords t') 1 + 1 * (y 1).val :=
    Rect.emb_apply (sliceAt (grid0.coords t')) y 1
  rw [(off_col t').2] at e
  rw [(off_col t).2, e] at h1
  have hy : (y 1).val < 1024 := (y 1).isLt
  have h2 : t.val * 1024 ≤ t'.val * 1024 + 1 * (y 1).val := h1.1
  have h3 : t'.val * 1024 + 1 * (y 1).val < t.val * 1024 + 1024 := h1.2
  have hne : t'.val ≠ t.val := Fin.val_ne_of_ne h
  omega

/-! ## Filled up to a point -/

/-- The slices of the first n points hold their tiles. -/
def Filled (c : Dev nD) (n : ℕ) (S : Vec F S64x16384 .f32) : Prop :=
  ∀ t : Fin cfg0.N, t.val < n → ∀ y : S64x1024.Idx, S ((sliceAt (grid0.coords t)).emb y) = tileAt m c t y

theorem filled_zero (c : Dev nD) (S : Vec F S64x16384 .f32) : Filled m c 0 S :=
  fun _ h => absurd h (Nat.not_lt_zero _)

/-- Storing point t's tile through its slice, over contents filled up to t, leaves them filled up to t + 1:
    the slice reads the tile, every earlier slice is untouched. -/
theorem filled_step (c : Dev nD) (t : Fin cfg0.N) (S : Vec F S64x16384 .f32)
    (arg5 : Memref sig .tc .vmem S64x16384 .f32) (harg5 : arg5.IsWhole) (hS : Filled m c t.val S) :
    Filled m c (t.val + 1)
      (arg5.view.read (Elt F) (arg5.view.writes (Elt F) (harg5.unread S) [⟨sliceAt (grid0.coords t), tileAt m c t⟩])) := by
  intro t' ht' y
  by_cases h : t' = t
  · subst h
    exact View.read_writes_cons_emb arg5.view (harg5.unread S) (sliceAt (grid0.coords t')) (tileAt m c t') [] y
  · have hlt : t'.val < t.val := by have := Fin.val_ne_of_ne h; omega
    rw [View.read_writes_apply_of_forall_not_mem arg5.view (harg5.unread S) _ _ (fun p hp => by
      rw [List.mem_singleton] at hp; subst hp; exact slice_apart t t' h y), harg5.read_unread]
    exact hS t' hlt y

/-- Contents filled up to the last point are the logits array. -/
theorem filled_all (c : Dev nD) (S : Vec F S64x16384 .f32) (hS : Filled m c 16 S) : S = logitArr m c := by
  funext y
  have h := hS (pointOf (y 1)) (lt16 _) (ix2 (y 0) (localOf (y 1)))
  rw [slice_cover y] at h
  exact h

/-! ## The invariant and the proof data -/

/-- Before point n: at launch, both scratch buffers at anything; afterwards the logits scratch filled up to n,
    the second scratch at the unit rows; the generator register at some state throughout. -/
def PhiS (c : Dev nD) : (n : ℕ) → n ≤ cfg0.N → sProp 𝕄
  | 0, _ => Pipeline.ΦA spec0 c
  | n + 1, _ => iprop(iprop((∃ S, ⌜Filled m c (n + 1) S⌝ ∗ owns (c : Thread nD τ) scL fullShare S) ∗ owns (c : Thread nD τ) scX fullShare (unitRows m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ S, ⌜Filled m c n S⌝ ∗ owns (c : Thread nD τ) scL fullShare S) ∗ owns (c : Thread nD τ) scX fullShare (unitRows m c)) ∗ (∃ r, prngReg c r)) := by
  cases n with
  | zero => exact absurd rfl hz
  | succ n => rfl

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outVal m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
/-- The output's buffer after the body, named at every point, read only at the last: the loss. -/
theorem after3 (c : Dev nD) (t : Fin cfg0.N) : (dats m 0 c).after 3 t = outVal m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The output window is written back at the last point only. -/
theorem noflush3 (t : Fin cfg0.N) (h : t.val ≠ 15) : (cfg0.win 3).flush t = false :=
  Bool.eq_false_iff.mpr fun hf => h (by have := (flush0_3 t).mp hf; have := lt16 t; omega)

theorem live3 (t : Fin cfg0.N) (h : t.val = 15) : cfg0.idle 3 (grid0.coords t) = false :=
  Bool.eq_false_iff.mpr fun hi => (idle3_iff t).mp hi h

end Cert.KernelIdeal.Body

end
-- ==== Proof.KiBody.lean ====
/-
  The body obligation at every grid point, the launch, and the frame.

  At a point the pipeline hands the body its four staging buffers (the inputs at their blocks, the output at
  what it held) and the invariant's two scratch buffers. Which of the three cases the point is in is decided by
  its position; the case's run gives back the buffers with its stores written, and the invariant is
  re-established: the logits scratch is filled one slice further, the unit rows stay, and at the last point the
  output buffer holds the loss of the now complete logits array.
-/
import proofs.«107741_j23519240913060_1_alg».proof.Proof.KiData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A whole-shape store, alone, leaves its payload. -/
theorem read_whole_store {S : Shape} (hr : S.rank = 2) (v : Memref sig .tc .vmem S .f32)
    (f : v.view.ty.Contents (Elt F)) {off : Fin S.rank → Nat} (hz : off = fun _ => 0) (inb : ∀ a, off a + S.size a ≤ S.size a)
    (w : S.Idx → Elt F .f32) :
    v.view.read (Elt F) (v.view.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  have hN := lt16 t
  by_cases h0 : t.val = 0
  · -- the first point
    have hF : isFirst (grid0.coords t) := (isFirst_iff t).mpr h0
    have hL : ¬isLast (grid0.coords t) := fun h => by have := (isLast_iff t).mp h; omega
    have ht : t = tFirst := Fin.ext h0
    rw [Dat.leavesExact_idle (dats m 0 c) 3 t ((idle3_iff t).mpr (by omega)) (noflush3 t (by omega))]
    rw [PhiS_castSucc m c t, PhiS_zero m c _ _ h0, phiA_eq]
    iintro ⟨⟨⟨⟨%dL, HL⟩, ⟨%dX, HX⟩⟩, Hg⟩, Ho, ⟨%d0, H0⟩, ⟨%d1, H1⟩, ⟨%d2, H2⟩, ⟨%d3, H3⟩⟩
    iapply ((runFirst c (grid0.coords t) _ _ _ _ _ _ _ _ _ _ _ _ hF hL (iblk m c 0 t) (iblk m c 1 t) (iblk m c 2 t) ((dats m 0 c).before 3 t d3) dL).2.2 Set.univ _)
    isplitl [H0]; · iexact H0
    isplitl [H1]; · iexact H1
    isplitl [H2]; · iexact H2
    isplitl [H3]; · iexact H3
    isplitl [HL]; · iexact HL
    isplitl [HX]; · iexists _; iexact HX
    iintro ⟨H0, H1, H2, H3, HL, ⟨%fX, HX⟩⟩
    isplitl [HL HX Hg]
    · isplitl [HL HX]
      · isplitl [HL]
        · iexists _; isplitr; swap
          · iapply owns_intro; iexact HL
          · ipureintro
            rw [runFirst_tile]
            have hf := filled_step m c t dL scL hscL (h0 ▸ filled_zero m c dL)
            subst ht
            exact hf
        · unfold owns; iexists _; isplitr; swap; · iexact HX
          ipureintro
          rw [runFirst_unit, read_whole_store rfl scX _ zeros2]
          subst ht; rfl
      · iexact Hg
    isplitl [Ho]; · iexact Ho
    isplitl [H0]; · iexact H0
    isplitl [H1]; · iexact H1
    isplitl [H2]; · iexact H2
    iexists _; iexact H3
  · by_cases h1 : t.val = 15
    · -- the last point
      have hF : ¬isFirst (grid0.coords t) := fun h => h0 ((isFirst_iff t).mp h)
      have hL : isLast (grid0.coords t) := (isLast_iff t).mpr h1
      have ht : t = tLast := Fin.ext h1
      rw [show (dats m 0 c).leavesExact 3 t = owns (c : Thread nD τ) (ms3 t) fullShare ((dats m 0 c).after 3 t) from by
          unfold Dat.leavesExact; rw [live3 t h1], after3]
      rw [PhiS_castSucc m c t, PhiS_pos m c _ _ h0]
      iintro ⟨⟨⟨⟨%S, %hS, HL⟩, HX⟩, Hg⟩, Ho, ⟨%d0, H0⟩, ⟨%d1, H1⟩, ⟨%d2, H2⟩, ⟨%d3, H3⟩⟩
      iapply ((runLast c (grid0.coords t) _ _ _ _ _ _ _ _ _ _ _ _ hF hL (iblk m c 0 t) (iblk m c 1 t) (iblk m c 2 t) S (unitRows m c)).2.2 Set.univ _)
      isplitl [H0]; · iexact H0
      isplitl [H1]; · iexact H1
      isplitl [H2]; · iexact H2
      isplitl [H3]; · iexists _; iexact H3
      isplitl [HL]; · iexact HL
      isplitl [HX]; · iexact HX
      iintro ⟨H0, H1, H2, ⟨%f3, H3⟩, HL, HX⟩
      isplitl [HL HX Hg]
      · isplitl [HL HX]
        · isplitl [HL]
          · iexists _; isplitr; swap
            · iapply owns_intro; iexact HL
            · ipureintro
              rw [runLast_tile]
              exact filled_step m c t S scL hscL hS
          · iexact HX
        · iexact Hg
      isplitl [Ho]; · iexact Ho
      isplitl [H0]; · iexact H0
      isplitl [H1]; · iexact H1
      isplitl [H2]; · iexact H2
      unfold owns; iexists _; isplitr; swap; · iexact H3
      ipureintro
      rw [runLast_loss, read_whole_store rfl (ms3 t) _ zeros2]
      have hfill := filled_step m c t S scL hscL hS
      rw [show t.val + 1 = 16 from by omega] at hfill
      rw [show (k0_pay2 (unitRows m c) (iblk m c 2 t)) = tileAt m c t from rfl, filled_all m c _ hfill]
      subst ht; rfl
    · -- a middle point
      have hF : ¬isFirst (grid0.coords t) := fun h => h0 ((isFirst_iff t).mp h)
      have hL : ¬isLast (grid0.coords t) := fun h => h1 ((isLast_iff t).mp h)
      rw [Dat.leavesExact_idle (dats m 0 c) 3 t ((idle3_iff t).mpr h1) (noflush3 t h1)]
      rw [PhiS_castSucc m c t, PhiS_pos m c _ _ h0]
      iintro ⟨⟨⟨⟨%S, %hS, HL⟩, HX⟩, Hg⟩, Ho, ⟨%d0, H0⟩, ⟨%d1, H1⟩, ⟨%d2, H2⟩, ⟨%d3, H3⟩⟩
      iapply ((runMid c (grid0.coords t) _ _ _ _ _ _ _ _ _ _ _ _ hF hL (iblk m c 0 t) (iblk m c 1 t) (iblk m c 2 t) ((dats m 0 c).before 3 t d3) S (unitRows m c)).2 Set.univ _)
      isplitl [H0]; · iexact H0
      isplitl [H1]; · iexact H1
      isplitl [H2]; · iexact H2
      isplitl [H3]; · iexact H3
      isplitl [HL]; · iexact HL
      isplitl [HX]; · iexact HX
      iintro ⟨H0, H1, H2, H3, HL, HX⟩
      isplitl [HL HX Hg]
      · isplitl [HL HX]
        · isplitl [HL]
          · iexists _; isplitr; swap
            · iapply owns_intro; iexact HL
            · ipureintro
              rw [runMid_tile]
              exact filled_step m c t S scL hscL hS
          · iexact HX
        · iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), phiA_eq]
  iintro ⟨⟨⟨%S, -, HL⟩, HX⟩, Hg⟩
  isplitl [HL HX]
  · isplitl [HL]
    · iexists _; iexact HL
    iexists _; iexact HX
  iexact Hg

set_option backward.isDefEq.respectTransparency.types false in
/-- Every weakly fair execution of the program terminates; in every final state each array of the pipeline holds
    what the proof data say was written back, and every other buffer what the host line after the region left. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The loss both programs compute, as ONE function of index-level data on the extended reals.

  For a batch of 64 rows, 2048 features and a bank of 16384 rows:
    xhat r k   = x r k / sqrt (sum_k (x r k)^2)                     each input row scaled to unit length
    sim r j    = sum_k xhat r k * f j k                             its similarity to bank row j
    logit r j  = sim r j / temp                                     temperature scaling, temp the f32 word of 0.05
    loss       = (sum_r sum_j -(softmax (T r) j) * log_softmax (L r) j) / 64
  with  softmax a j = exp (a j - max a) / sum_j' exp (a j' - max a)
  and   log_softmax a j = (a j - max a) - log (sum_j' exp (a j' - max a)).
-/
import Idealize.ShloMosaic.PureOps.Ideal
import Mathlib.Data.EReal.Basic
import Mathlib.Order.CompleteLattice.Finset
import Mathlib.Algebra.BigOperators.Group.Finset.Basic

noncomputable section

namespace Cert.Spec

open Idealize.ShloMosaic

/-- The temperature: the f32 word of 0.05, which is 13421773 / 2^28. -/
def temp : EReal := Ideal.ofBits .f32 0x3D4CCCCD#32

/-- The divisor of the batch mean: the f32 word of 64. -/
def batch : EReal := Ideal.ofBits .f32 0x42800000#32

/-- Row r's sum of squares. -/
def sumSq (x : Fin 64 → Fin 2048 → EReal) (r : Fin 64) : EReal := ∑ k : Fin 2048, x r k * x r k

/-- Row r scaled to unit length. -/
def xhat (x : Fin 64 → Fin 2048 → EReal) (r : Fin 64) (k : Fin 2048) : EReal :=
  Ideal.div (x r k) (Ideal.sqrt (sumSq x r))

/-- The similarity of unit row r to bank row j. -/
def sim (x : Fin 64 → Fin 2048 → EReal) (f : Fin 16384 → Fin 2048 → EReal) (r : Fin 64) (j : Fin 16384) : EReal :=
  ∑ k : Fin 2048, xhat x r k * f j k

/-- The logits: similarities divided by the temperature. -/
def logit (x : Fin 64 → Fin 2048 → EReal) (f : Fin 16384 → Fin 2048 → EReal) (r : Fin 64) (j : Fin 16384) : EReal :=
  Ideal.div (sim x f r j) temp

/-- The largest entry of row r. -/
def rowMax (a : Fin 64 → Fin 16384 → EReal) (r : Fin 64) : EReal := Finset.univ.sup (a r)

/-- The sum over row r of exp (entry - row maximum). -/
def rowSumExp (a : Fin 64 → Fin 16384 → EReal) (r : Fin 64) : EReal :=
  ∑ j : Fin 16384, Ideal.exp (a r j - rowMax a r)

/-- One summand of the soft cross entropy: -(softmax of the targets) * (log_softmax of the logits). -/
def term (L T : Fin 64 → Fin 16384 → EReal) (r : Fin 64) (j : Fin 16384) : EReal :=
  (-(Ideal.div (Ideal.exp (T r j - rowMax T r)) (rowSumExp T r))) * ((L r j - rowMax L r) - Ideal.log (rowSumExp L r))

/-- The loss: the summands added over the whole batch, divided by the batch size. -/
def loss (L T : Fin 64 → Fin 16384 → EReal) : EReal :=
  Ideal.div (∑ r : Fin 64, ∑ j : Fin 16384, term L T r j) batch

end Cert.Spec

end
-- ==== Proof.RefAIdx.lean ====
/-
  The reference's stages read at coordinates: the index arithmetic of its layout operations at (row, column) pairs, and
  the two row maxima as suprema.

  A rank-2 index is written ix2 r j, a rank-1 index ix1 r. Every broadcast, transpose and reduction of the reference
  moves such a pair to another pair by a rule that computes at the literal shapes; the equations below state each rule
  once. A maximum over a row, folded from -inf, is the supremum of the row's entries: on the extended reals -inf is the
  least element, so it is neutral for max, and the supremum of a finite family is by definition that fold.
-/
import proofs.«107741_j23519240913060_1_alg».proof.Proof.RefReadP
import proofs.«107741_j23519240913060_1_alg».proof.Proof.Spec

noncomputable section

namespace Cert.RefA

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

/-! ## Where each layout operation reads -/

/-- Summing row r over k reads (r, k). -/
theorem idx_c0v1 (r : Fin 64) (k : Fin 2048) : idx_main_call0_v1 (ix1 r) k = ix2 r k :=
  funext fun a => match a with | ⟨0, _⟩ => rfl | ⟨1, _⟩ => rfl

/-- A per-row value spread over the row's 2048 columns is read at the row. -/
theorem idx_v1 (r : Fin 64) (k : Fin 2048) : idx_main_call0_v2 (idx_main_v1 (ix2 r k)) = ix1 r :=
  funext fun a => match a with | ⟨0, _⟩ => rfl

/-- The contraction of row r with bank row j reads the left operand at (r, k) … -/
theorem lidx_v4 (r : Fin 64) (j : Fin 16384) (k : Fin 2048) : lidx_main_v4 (ix2 r j) k = ix2 r k :=
  funext fun a => match a with | ⟨0, _⟩ => rfl | ⟨1, _⟩ => rfl

/-- … and the transposed bank at (k, j), which is the bank at (j, k). -/
theorem ridx_v4 (r : Fin 64) (j : Fin 16384) (k : Fin 2048) : idx_main_v3 (ridx_main_v4 (ix2 r j) k) = ix2 j k :=
  funext fun a => match a with | ⟨0, _⟩ => rfl | ⟨1, _⟩ => rfl

/-- A per-row value spread over the row's 16384 columns is read at the row (the four such broadcasts share one rule). -/
theorem idx_v11 (r : Fin 64) (j : Fin 16384) : idx_main_v10 (idx_main_v11 (ix2 r j)) = ix1 r :=
  funext fun a => match a with | ⟨0, _⟩ => rfl
theorem idx_v16 (r : Fin 64) (j : Fin 16384) : idx_main_v15 (idx_main_v16 (ix2 r j)) = ix1 r :=
  funext fun a => match a with | ⟨0, _⟩ => rfl
theorem idx_c1v4 (r : Fin 64) (j : Fin 16384) : idx_main_call1_v3 (idx_main_call1_v4 (ix2 r j)) = ix1 r :=
  funext fun a => match a with | ⟨0, _⟩ => rfl
theorem idx_c1v10 (r : Fin 64) (j : Fin 16384) : idx_main_call1_v8 (idx_main_call1_v10 (ix2 r j)) = ix1 r :=
  funext fun a => match a with | ⟨0, _⟩ => rfl

/-- Summing row r over j reads (r, j). -/
theorem idx_v14 (r : Fin 64) (j : Fin 16384) : idx_main_v14 (ix1 r) j = ix2 r j :=
  funext fun a => match a with | ⟨0, _⟩ => rfl | ⟨1, _⟩ => rfl
theorem idx_c1v7 (r : Fin 64) (j : Fin 16384) : idx_main_call1_v7 (ix1 r) j = ix2 r j :=
  funext fun a => match a with | ⟨0, _⟩ => rfl | ⟨1, _⟩ => rfl

/-! ## The words of zero and of -inf -/

/-- The f32 word of -inf is the least extended real. -/
theorem ofBits_neg_inf : Ideal.ofBits .f32 0xFF800000#32 = (⊥ : EReal) := by
  simp [Ideal.ofBits, Ideal.ieee]

/-! ## A row's maximum -/

/-- The row index r with column j put back is (r, j). -/
theorem lift_row (h : S64x16384.Reduces [1] S64) (r : Fin 64) (j : Fin (S64x16384.size 1)) :
    h.lift (ix1 r) j = ix2 r (⟨j.val, j.isLt⟩ : Fin 16384) := by
  funext c; apply Fin.ext
  fin_cases c <;> rfl

/-- From -inf, the maximum over the columns of row r is the supremum of the row's entries. -/
theorem rowMax_read (y : (⟨S64x16384, .f32⟩ : BufTy).Contents (Elt Ideal)) (h' : S64x16384.ReducesTo [1] S64)
    (hu : 0 < S_.numel) (r : Fin 64) :
    Host.reduce FloatOps.maximumf y (constant (F := Ideal) S_ .f32 0xFF800000#32) h' hu (ix1 r)
      = Finset.univ.sup fun j : Fin 16384 => y (ix2 r j) := by
  have h : S64x16384.Reduces [1] S64 := by decide
  refine (Host.reduce_eq_fold_single (α := Ideal .f32) (FloatOps.maximumf (F := Ideal) (φ := .f32)) y _ h' h hu (ix1 r)).trans ?_
  have hf : (y ∘ h.lift (ix1 r)) = fun j : Fin 16384 => y (ix2 r j) := funext fun j => congrArg y (lift_row h r j)
  have hb : (constant (F := Ideal) S_ .f32 0xFF800000#32) (Shape.Idx.first hu) = (⊥ : EReal) := ofBits_neg_inf
  rw [hb]
  exact congrArg (fun f => Finset.fold max (⊥ : EReal) f (Finset.univ : Finset (Fin 16384))) hf

end Cert.RefA

end
-- ==== Proof.RefALogit.lean ====
/-
  The reference's logits, read at (row, column): the row's sum of squares, the row scaled to unit length, its
  similarity to each bank row, and the division by the temperature.

  Each stage is read at an index through the stage before it. A sum from the zero word is the sum (0 + s = s on the
  extended reals); the division by the spread-out norm reads the norm at the row; the contraction of row r with the
  transposed bank is the sum over k of (unit row r at k) times (bank row j at k).
-/
import proofs.«107741_j23519240913060_1_alg».proof.Proof.RefAIdx

noncomputable section

namespace Cert.RefA

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

variable (x0 : (⟨S64x2048, .f32⟩ : BufTy).Contents (Elt Ideal)) (x3 : (⟨S16384x2048, .f32⟩ : BufTy).Contents (Elt Ideal))

/-- The input rows as a function of (row, feature). -/
abbrev X : Fin 64 → Fin 2048 → EReal := fun r k => x0 (ix2 r k)
/-- The bank as a function of (bank row, feature). -/
abbrev Bank : Fin 16384 → Fin 2048 → EReal := fun j k => x3 (ix2 j k)

/-- The reduced squares at row r are the row's sum of squares. -/
theorem sumSq_read (r : Fin 64) : val_main_call0_v1 (F := Ideal) x0 (ix1 r) = Cert.Spec.sumSq (X x0) r := by
  rw [val_main_call0_v1_apply, val_main_call0_cst_apply, Ideal.ofBits_def, Ideal.ofBits_zero_f32, zero_add]
  unfold Cert.Spec.sumSq
  refine Finset.sum_congr rfl fun k _ => ?_
  rw [val_main_call0_v0_apply, idx_c0v1, Ideal.mulf_def]

/-- The scaled input at (r, k) is the row's entry divided by the root of the row's sum of squares. -/
theorem xhat_read (r : Fin 64) (k : Fin 2048) : val_main_v2 (F := Ideal) x0 (ix2 r k) = Cert.Spec.xhat (X x0) r k := by
  rw [val_main_v2_apply, Ideal.hostDivf_def, val_main_v1_apply, val_main_v0_apply, Ideal.hostUnary_sqrt_def,
    val_main_call0_v2_apply, idx_v1, sumSq_read]
  rfl

/-- The logit at (r, j) is the similarity of unit row r to bank row j, divided by the temperature. -/
theorem logit_read (r : Fin 64) (j : Fin 16384) :
    val_main_v6 (F := Ideal) x0 x3 (ix2 r j) = Cert.Spec.logit (X x0) (Bank x3) r j := by
  rw [val_main_v6_apply, Ideal.hostDivf_def, val_main_v4_apply, val_main_v5_apply, val_main_cst_apply, Ideal.ofBits_def]
  unfold Cert.Spec.logit Cert.Spec.sim Cert.Spec.temp
  refine congrArg (fun s => Ideal.div s _) (Finset.sum_congr rfl fun k _ => ?_)
  rw [lidx_v4, xhat_read, val_main_v3_apply, ridx_v4]

end Cert.RefA

end
-- ==== Proof.RefASoft.lean ====
/-
  The two softmax computations of the reference, read at (row, column).

  For the targets: the row maximum, exp (entry - maximum), the row's sum of these, and their quotient (the softmax).
  For the logits: the row maximum, entry - maximum, the row's sum of exp of these, and
  (entry - maximum) - log (sum) (the log-softmax). max (-inf) s = s and 0 + s = s hold for every extended real, so
  nothing here needs the entries to be finite.
-/
import proofs.«107741_j23519240913060_1_alg».proof.Proof.RefALogit

noncomputable section

namespace Cert.RefA

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

variable (x0 : (⟨S64x2048, .f32⟩ : BufTy).Contents (Elt Ideal)) (x1 : (⟨S64x16384, .f32⟩ : BufTy).Contents (Elt Ideal))
  (x3 : (⟨S16384x2048, .f32⟩ : BufTy).Contents (Elt Ideal))

/-- The targets as a function of (row, column). -/
abbrev Tg : Fin 64 → Fin 16384 → EReal := fun r j => x1 (ix2 r j)

/-! ## The targets' softmax -/

/-- The targets' row maximum (taken once more against -inf, which changes nothing). -/
theorem tmax_read (r : Fin 64) : val_main_v9 (F := Ideal) x1 (ix1 r) = Cert.Spec.rowMax (Tg x1) r := by
  rw [val_main_v9_apply, Ideal.maximumf_def, val_main_v8_apply, val_main_cst_1_apply, Ideal.ofBits_def, ofBits_neg_inf,
    max_bot_left]
  unfold val_main_v7 val_main_cst_0
  exact rowMax_read x1 _ _ r

/-- exp (target - row maximum). -/
theorem texp_read (r : Fin 64) (j : Fin 16384) :
    val_main_v13 (F := Ideal) x1 (ix2 r j) = Ideal.exp (Tg x1 r j - Cert.Spec.rowMax (Tg x1) r) := by
  rw [val_main_v13_apply, Ideal.hostUnary_exp_def, val_main_v12_apply, Ideal.subf_def, val_main_v11_apply,
    val_main_v10_apply, idx_v11, tmax_read]

/-- The row's sum of these exponentials. -/
theorem tsum_read (r : Fin 64) : val_main_v14 (F := Ideal) x1 (ix1 r) = Cert.Spec.rowSumExp (Tg x1) r := by
  rw [val_main_v14_apply, val_main_cst_2_apply, Ideal.ofBits_def, Ideal.ofBits_zero_f32, zero_add]
  unfold Cert.Spec.rowSumExp
  refine Finset.sum_congr rfl fun j _ => ?_
  rw [idx_v14, texp_read]

/-- The targets' softmax at (r, j). -/
theorem tsoft_read (r : Fin 64) (j : Fin 16384) :
    val_main_v17 (F := Ideal) x1 (ix2 r j)
      = Ideal.div (Ideal.exp (Tg x1 r j - Cert.Spec.rowMax (Tg x1) r)) (Cert.Spec.rowSumExp (Tg x1) r) := by
  rw [val_main_v17_apply, Ideal.hostDivf_def, texp_read, val_main_v16_apply, val_main_v15_apply, idx_v16, tsum_read]

/-! ## The logits' log-softmax -/

/-- The logits' row maximum. -/
theorem lmax_read (r : Fin 64) :
    val_main_call1_v2 (F := Ideal) x0 x3 (ix1 r) = Cert.Spec.rowMax (Cert.Spec.logit (X x0) (Bank x3)) r := by
  rw [val_main_call1_v2_apply, Ideal.maximumf_def, val_main_call1_v1_apply, val_main_call1_cst_0_apply, Ideal.ofBits_def,
    ofBits_neg_inf, max_bot_left]
  unfold val_main_call1_v0 val_main_call1_cst
  rw [rowMax_read]
  unfold Cert.Spec.rowMax
  exact congrArg (Finset.univ.sup) (funext fun j => logit_read x0 x3 r j)

/-- logit - row maximum. -/
theorem lsub_read (r : Fin 64) (j : Fin 16384) :
    val_main_call1_v5 (F := Ideal) x0 x3 (ix2 r j)
      = Cert.Spec.logit (X x0) (Bank x3) r j - Cert.Spec.rowMax (Cert.Spec.logit (X x0) (Bank x3)) r := by
  rw [val_main_call1_v5_apply, Ideal.subf_def, logit_read, val_main_call1_v4_apply, val_main_call1_v3_apply, idx_c1v4,
    lmax_read]

/-- The row's sum of exp (logit - row maximum). -/
theorem lsum_read (r : Fin 64) :
    val_main_call1_v7 (F := Ideal) x0 x3 (ix1 r) = Cert.Spec.rowSumExp (Cert.Spec.logit (X x0) (Bank x3)) r := by
  rw [val_main_call1_v7_apply, val_main_call1_cst_1_apply, Ideal.ofBits_def, Ideal.ofBits_zero_f32, zero_add]
  unfold Cert.Spec.rowSumExp
  refine Finset.sum_congr rfl fun j _ => ?_
  rw [idx_c1v7, val_main_call1_v6_apply, Ideal.hostUnary_exp_def, lsub_read]

/-- The logits' log-softmax at (r, j). -/
theorem lsoft_read (r : Fin 64) (j : Fin 16384) :
    val_main_v18 (F := Ideal) x0 x3 (ix2 r j)
      = (Cert.Spec.logit (X x0) (Bank x3) r j - Cert.Spec.rowMax (Cert.Spec.logit (X x0) (Bank x3)) r)
          - Ideal.log (Cert.Spec.rowSumExp (Cert.Spec.logit (X x0) (Bank x3)) r) := by
  rw [val_main_v18_apply, Ideal.subf_def, lsub_read, val_main_call1_v10_apply, val_main_call1_v9_apply,
    Ideal.hostUnary_log_def, val_main_call1_v8_apply, idx_c1v10, lsum_read]

end Cert.RefA

end
-- ==== Proof.RefAValue.lean ====
/-
  The reference computes the specification's loss.

  Its summand at (r, j) is -(softmax of the targets) times (log-softmax of the logits); the total over all 64 x 16384
  index pairs, taken from the zero word, is the double sum over rows and columns; the result is that sum divided by the
  word of 64. Hence the reference's run ends with its result buffer at the loss of its argument arrays, with no
  hypothesis on the arguments.
-/
import proofs.«107741_j23519240913060_1_alg».proof.Proof.RefASoft

noncomputable section

namespace Cert.RefA

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

variable (x0 : (⟨S64x2048, .f32⟩ : BufTy).Contents (Elt Ideal)) (x1 : (⟨S64x16384, .f32⟩ : BufTy).Contents (Elt Ideal))
  (x3 : (⟨S16384x2048, .f32⟩ : BufTy).Contents (Elt Ideal))

/-- The summand at (r, j). -/
theorem term_read (r : Fin 64) (j : Fin 16384) :
    val_main_v20 (F := Ideal) x0 x1 x3 (ix2 r j)
      = Cert.Spec.term (Cert.Spec.logit (X x0) (Bank x3)) (Tg x1) r j := by
  rw [val_main_v20_apply, Ideal.mulf_def, val_main_v19_apply, Ideal.hostNegf_def, Ideal.negf_def, tsoft_read, lsoft_read]
  rfl

/-- The reference's result is the loss of its arguments. -/
theorem loss_read (i : S_.Idx) :
    val_main_v22 (F := Ideal) x0 x1 x3 i = Cert.Spec.loss (Cert.Spec.logit (X x0) (Bank x3)) (Tg x1) := by
  rw [val_main_v22_apply, Ideal.hostDivf_def, val_main_v21_apply, val_main_cst_3_apply, val_main_cst_4_apply, Ideal.ofBits_def,
    Ideal.ofBits_def, Ideal.ofBits_zero_f32, zero_add, sum_idx2]
  simp only [term_read]
  rfl

/-- On every device, from any memory with zero counters: every weakly fair execution of the reference terminates with
    its result at the loss of the argument arrays and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
        = (fun _ => Cert.Spec.loss
            (Cert.Spec.logit (fun r k => m ((c.tc : Thread nD τ).loc main_arg0) (ix2 r k))
              (fun j k => m ((c.tc : Thread nD τ).loc main_arg3) (ix2 j k)))
            (fun r j => m ((c.tc : Thread nD τ).loc main_arg1) (ix2 r j)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨by
      rw [(h c).1, val_main_v22_eq]
      exact funext fun i => loss_read _ _ _ i, (h c).2⟩)
    (Cert.ReferenceIdeal.ValueP.run (F := Ideal) m ρ)

end Cert.RefA

end
-- ==== Proof.KtAFinal.lean ====
/-
  The output array after the region: the one number the last grid point writes back.

  The output window is a [1,1] block of the [1,1] result array, at block index (0, 0) at every point, and it is written
  back at the last point only. That block is the whole array, so the array ends holding exactly what the last point's
  staging buffer held: the loss.
-/
import proofs.«107741_j23519240913060_1_alg».proof.Proof.KiData
import Idealize.ShloMosaic.Lib.Pipeline.Value

set_option maxRecDepth 16384

noncomputable section

namespace Cert.KtA

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ)

/-- The loss as contents of the result array (the array's one block is the array). -/
abbrev outArr (c : Dev nD) : Buf (Elt F) ((c : Thread nD τ).loc main_v0) := outVal m c

/-- The one write-back, at the last point, writes the loss: block (0, 0) of the [1,1] array, read through zero offsets,
    is the array. -/
theorem flushed_eq (c : Dev nD) (t : Fin cfg0.N) (hf : (cfg0.win 3).flush t = true) :
    (dats m 0 c).flushed 3 t = ((cfg0.win 3).blk t).view.read (Elt F) (outArr m c) := by
  have h15 : t.val = 15 := by have := (flush0_3 t).mp hf; have := lt16 t; omega
  obtain rfl : t = t0_15 := Fin.ext h15
  show (cfg0.win 3).cut (grid0.coords t0_15) ((dats m 0 c).after 3 t0_15) = _
  rw [after3]
  have hz' : (fun a => win0_3.index t0_15 a * main_v0.ty.shape.size a) = fun _ => 0 :=
    funext fun a => by fin_cases a <;> decide +kernel
  exact (Memref.read_access_unit_zero (Elt F) main_v0 hz' (fun a => by rw [congrFun hz' a]; simp) (outArr m c)).symm

/-- So the result array ends holding the loss: the last point's block covers it. -/
theorem final (c : Dev nD) : (dats m 0 c).arrAt 3 cfg0.N = outArr m c :=
  (dats m 0 c).arrAt_eq_of_cover 3 (outArr m c) (flushed_eq m c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat) ∧ (i 0 : Nat) < win0_3.index t0_15 0 * win0_3.size 0 + win0_3.xsize (grid0.coords t0_15) 0
        rw [show win0_3.index t0_15 0 * win0_3.size 0 = 0 from by decide +kernel, show win0_3.xsize (grid0.coords t0_15) 0 = 1 from by decide +kernel]; omega
      | ⟨1, _⟩ =>
        show win0_3.index t0_15 1 * win0_3.size 1 ≤ (i 1 : Nat) ∧ (i 1 : Nat) < win0_3.index t0_15 1 * win0_3.size 1 + win0_3.xsize (grid0.coords t0_15) 1
        rw [show win0_3.index t0_15 1 * win0_3.size 1 = 0 from by decide +kernel, show win0_3.xsize (grid0.coords t0_15) 1 = 1 from by decide +kernel]; omega⟩

end Cert.KtA

end
-- ==== Proof.KtATail.lean ====
/-
  The host line after the region: the [1,1] result array reshaped to a scalar.

  After the region the result array holds the loss (its one entry); the reshape reads the scalar's one index at the
  array's one index, both at row-major position 0. So the program's result is the loss, as a scalar.
-/
import proofs.«107741_j23519240913060_1_alg».proof.Proof.KtAFinal
import Idealize.ShloMosaic.Lib.Pipeline.Value

set_option maxRecDepth 16384

noncomputable section

namespace Cert.KtA

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ)

/-- The program's result after the host line: the scalar whose value is the result array's one entry, the loss. -/
theorem tail_value (c : Dev nD) :
    Pipeline.afterTail₀ cfgs (dats m) 0 (V0 m) [hostOps1] c main_v1 = fun _ => outVal m c (ix2 0 0) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = outArr m c :=
    (Pipeline.withArrays_arr spec0 launch0.win.arr_inj c _ _ 3).trans (final m c)
  rw [e]
  funext i
  show shapeCast S_ (outArr m c) shapeCasts_S1x1_S_ i = outVal m c (ix2 0 0)
  refine shapeCast_apply (outArr m c) shapeCasts_S1x1_S_ i (ix2 0 0) ?_
  refine (Shape.rowMajor_val_two (d := ![1, 1]) (ix2 0 0)).trans ?_
  show 0 * 1 + 0 = (Shape.rowMajorPi _ i).val
  rw [Shape.rowMajorPi_zero]

end Cert.KtA

end
-- ==== Proof.LibFiniteMax.lean ====
/-
  Finite entries, clips and maxima on the extended reals. Library imports only.

  * The words of `+inf` and `-inf` denote `⊤` and `⊥`.
  * An extended real that the comparison `|x| < +inf` accepts — `max x (-x)` compared with the word of `+inf`, the
    element test of a "every input is finite" precondition — is a real number.
  * A value clipped into a real interval, `min hi (max lo r)`, is a real number whatever `r` is.
  * The maximum, taken from `⊥`, of a nonempty finite family of real numbers is a real number (a row's or an
    array's largest absolute value, as a quantizer's scale takes it).
  * The absolute value `max x (-x)` of a real number is a real number.
  "Is a real number" is stated as `∃ a : ℝ, x = ↑a`.
-/
import Idealize.ShloMosaic.PureOps.Ideal
import Mathlib.Data.EReal.Basic
import Mathlib.Data.EReal.Operations
import Mathlib.Data.Finset.Fold
import Mathlib.Tactic

noncomputable section

namespace Cert.LibFiniteMax

open Idealize.ShloMosaic

/-- The word of `+inf` denotes `⊤`. -/
theorem ofBits_pos_inf : Ideal.ofBits .f32 0x7F800000#32 = ⊤ := by
  simp [Ideal.ofBits, Ideal.ieee]

/-- The word of `-inf` denotes `⊥`. -/
theorem ofBits_neg_inf : Ideal.ofBits .f32 0xFF800000#32 = ⊥ := by
  simp [Ideal.ofBits, Ideal.ieee]

/-- A value that is neither infinity is a real number. -/
theorem real_of_ne {x : EReal} (h1 : x ≠ ⊤) (h2 : x ≠ ⊥) : ∃ a : ℝ, x = (a : EReal) :=
  ⟨x.toReal, (EReal.coe_toReal h1 h2).symm⟩

/-- A value whose absolute value `max x (-x)` is below `⊤` is a real number. -/
theorem real_of_abs_lt_top {x : EReal} (h : max x (-x) < ⊤) : ∃ a : ℝ, x = (a : EReal) := by
  have h1 : x < ⊤ := lt_of_le_of_lt (le_max_left _ _) h
  have h2 : -x < ⊤ := lt_of_le_of_lt (le_max_right _ _) h
  refine real_of_ne (ne_of_lt h1) ?_
  rintro rfl
  simp at h2

/-- An entry that the comparison `|x| < +inf` accepts is a real number. -/
theorem real_of_lt_inf {x : EReal}
    (h : Ideal.cmp .olt (max x (-x)) (Ideal.ofBits .f32 0x7F800000#32) = 1#1) : ∃ a : ℝ, x = (a : EReal) := by
  rw [ofBits_pos_inf] at h
  apply real_of_abs_lt_top
  by_contra hc
  have : Ideal.cmp .olt (max x (-x)) ⊤ = 0#1 := by
    unfold Ideal.cmp
    simp only [decide_eq_false hc]
    rfl
  rw [this] at h
  exact absurd h (by decide)

/-- A value clipped into the real interval [lo, hi] is a real number. -/
theorem clip_real (lo hi : ℝ) (hle : lo ≤ hi) (r : EReal) :
    ∃ a : ℝ, min (hi : EReal) (max (lo : EReal) r) = (a : EReal) := by
  apply real_of_ne
  · exact ne_of_lt (lt_of_le_of_lt (min_le_left _ _) (EReal.coe_lt_top _))
  · exact ne_of_gt (lt_of_lt_of_le (EReal.bot_lt_coe _)
      (le_min (EReal.coe_le_coe_iff.2 hle) (le_max_left _ _)))

/-- The maximum, from `⊥`, of a nonempty finite family of real numbers is a real number. -/
theorem fold_max_real {ι : Type*} (S : Finset ι) (f : ι → EReal) (hne : S.Nonempty)
    (hf : ∀ i ∈ S, ∃ a : ℝ, f i = (a : EReal)) : ∃ a : ℝ, S.fold max ⊥ f = (a : EReal) := by
  apply real_of_ne
  · apply ne_of_lt
    rw [Finset.fold_max_lt]
    refine ⟨bot_lt_top, fun i hi => ?_⟩
    obtain ⟨a, ha⟩ := hf i hi
    rw [ha]; exact EReal.coe_lt_top a
  · apply ne_of_gt
    rw [Finset.lt_fold_max]
    obtain ⟨i, hi⟩ := hne
    obtain ⟨a, ha⟩ := hf i hi
    exact Or.inr ⟨i, hi, by rw [ha]; exact EReal.bot_lt_coe a⟩

/-- The absolute value of a real number is a real number. -/
theorem abs_real {x : EReal} (hx : ∃ a : ℝ, x = (a : EReal)) : ∃ a : ℝ, max x (-x) = (a : EReal) := by
  obtain ⟨a, rfl⟩ := hx
  rcases le_total (a : EReal) (-(a : EReal)) with h | h
  · rw [max_eq_right h]; exact ⟨-a, (EReal.coe_neg a).symm⟩
  · rw [max_eq_left h]; exact ⟨a, rfl⟩

end Cert.LibFiniteMax

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.PcCPre.lean ====
/-
  The input precondition, decoded entry by entry on the extended reals.

  The precondition is the conjunction of three "every entry has absolute value below +inf" tests (the inputs, the
  targets and the feature bank) and of "every row of the inputs has a positive sum of squares". Each test is a
  reduction by "and" of an array of one-bit comparisons into one bit; the whole being one says that each
  comparison is one. An entry whose absolute value is below the top element is a real number, and a comparison
  "greater than zero" that is one says that zero is strictly below the row's sum of squares.
-/
import proofs.«107741_j23519240913060_1_alg».proof.Pre_finite_inputs
import proofs.«107741_j23519240913060_1_alg».proof.Proof.LibFiniteMax
import proofs.«107741_j23519240913060_1_alg».proof.Proof.LibRowReduce
import Idealize.ShloMosaic.Lib.ReduceAll
import Idealize.ShloMosaic.Lib.ValueIdx
import Idealize.ShloMosaic.PureOps.Ideal.Laws

noncomputable section

namespace Cert.PcC

open Idealize.ShloMosaic Idealize.ShloMosaic.ValueIdx Cert.Pre_finite_inputs

/-- The scalar shape has one index. -/
instance subsingleton_scalar_idx : Subsingleton S_.Idx := ⟨fun a b => funext fun d => d.elim0⟩

/-- A comparison "x greater than y" that answers one says y < x. -/
theorem lt_of_cmp_ogt {x y : EReal} (h : Ideal.cmp .ogt x y = 1#1) : y < x := by
  by_contra hc
  have e : Ideal.cmp .ogt x y = 0#1 := by
    unfold Ideal.cmp
    simp only [decide_eq_false hc]
    rfl
  rw [e] at h
  exact absurd h (by decide)

variable [Facts]

/-- THE PRECONDITION DECODED: every entry of the inputs, the targets and the feature bank is a real number, and
    every input row has a positive sum of squares. -/
theorem pre_decode (x : FVec Ideal S64x2048 .f32) (t : FVec Ideal S64x16384 .f32) (cid : IVec S64 32)
    (f : FVec Ideal S16384x2048 .f32)
    (h : Cert.Pre_finite_inputs.fn (F := Ideal) x t cid f = fun _ => 1#1) :
    (∀ i, ∃ a : ℝ, x i = (a : EReal)) ∧ (∀ i, ∃ a : ℝ, t i = (a : EReal)) ∧ (∀ i, ∃ a : ℝ, f i = (a : EReal))
      ∧ ∀ r : Fin 64, 0 < ∑ k : Fin 2048, x (ix2 r k) * x (ix2 r k) := by
  have e := congrFun h ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨⟨h1, h2⟩, h3⟩, h4⟩ := e
  have a1 := Host.reduce_andi_all _ _ _ _ _ h1
  have a2 := Host.reduce_andi_all _ _ _ _ _ h2
  have a3 := Host.reduce_andi_all _ _ _ _ _ h3
  have a4 := Host.reduce_andi_all _ _ _ _ _ h4
  refine ⟨fun i => LibFiniteMax.real_of_lt_inf (a1 i), fun i => LibFiniteMax.real_of_lt_inf (a2 i),
    fun i => LibFiniteMax.real_of_lt_inf (a3 i), fun r => ?_⟩
  have c := a4 (ix1 r)
  change Ideal.cmp .ogt (Ideal.hostReduceAdd Facts.reducesTo_S64x2048_S64_d1 (fun i => x i * x i)
    (Ideal.ofBits .f32 0x00000000#32) (ix1 r)) (Ideal.ofBits .f32 0x00000000#32) = 1#1 at c
  have p := lt_of_cmp_ogt c
  rw [Ideal.hostReduceAdd_single Facts.reducesTo_S64x2048_S64_d1 (by decide), Ideal.ofBits_zero_f32, zero_add] at p
  refine lt_of_lt_of_eq p (Finset.sum_congr rfl fun k _ => ?_)
  exact congrArg (fun z => x z * x z) (LibRowReduce.lift_row _ r k)

end Cert.PcC

end
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.PcCConst.lean ====
/-
  The temperature as a rational number.

  The temperature's word denotes 13421773 / 2^28, a nonzero real number, so dividing by it is multiplying by
  2^28 / 13421773, for every extended real dividend.
-/
import proofs.«107741_j23519240913060_1_alg».proof.Proof.Spec
import Idealize.ShloMosaic.PureOps.Ideal
import Mathlib.Tactic

noncomputable section

namespace Cert.PcC

open Idealize.ShloMosaic

/-- The temperature's word denotes 13421773 / 2^28. -/
theorem temp_eq : Cert.Spec.temp = ((13421773 / 268435456 : ℝ) : EReal) := by
  unfold Cert.Spec.temp
  simp [Ideal.ofBits, Ideal.ieee, -EReal.coe_mul]; norm_num

/-- Division by the temperature is the product with 2^28 / 13421773, for every extended real. -/
theorem div_temp (s : EReal) : Ideal.div s Cert.Spec.temp = s * ((268435456 / 13421773 : ℝ) : EReal) := by
  rw [temp_eq, Ideal.div_coe (by norm_num)]
  congr 2
  norm_num

end Cert.PcC

end
-- ==== Proof.PcCReal.lean ====
/-
  The unit rows and the logits are real numbers.

  With every input entry and every feature entry a real number and every input row's sum of squares positive: the
  sum of squares is a positive real number, its square root a positive real number, so each entry of the unit row is a
  real number divided by a nonzero real number; a similarity is a finite sum of products of real numbers; a logit
  is a similarity divided by the temperature, a nonzero real number.
-/
import proofs.«107741_j23519240913060_1_alg».proof.Proof.Spec
import proofs.«107741_j23519240913060_1_alg».proof.Proof.LibMoment
import proofs.«107741_j23519240913060_1_alg».proof.Proof.PcCConst

noncomputable section

namespace Cert.PcC

open Idealize.ShloMosaic Cert.LibMoment

/-- The square root of a positive real number is a nonzero real number. -/
theorem sqrt_real_of_pos {s : EReal} (hs : ∃ a : ℝ, s = (a : EReal)) (hpos : 0 < s) :
    ∃ b : ℝ, b ≠ 0 ∧ Ideal.sqrt s = (b : EReal) := by
  obtain ⟨a, rfl⟩ := hs
  have ha : 0 < a := EReal.coe_pos.mp hpos
  refine ⟨Real.sqrt a, (Real.sqrt_pos.mpr ha).ne', ?_⟩
  rw [Ideal.sqrt_coe, if_neg (not_lt.mpr ha.le)]

variable (X : Fin 64 → Fin 2048 → EReal) (Fm : Fin 16384 → Fin 2048 → EReal)

/-- A row's sum of squares of real entries is a real number. -/
theorem sumSq_real (hX : ∀ r k, ∃ a : ℝ, X r k = (a : EReal)) (r : Fin 64) :
    ∃ a : ℝ, Cert.Spec.sumSq X r = (a : EReal) := by
  unfold Cert.Spec.sumSq
  exact IsReal.sum_univ _ (fun k => IsReal.mul (hX r k) (hX r k))

/-- THE UNIT ROWS ARE REAL: every entry of a row scaled to unit length is a real number. -/
theorem xhat_real (hX : ∀ r k, ∃ a : ℝ, X r k = (a : EReal)) (hpos : ∀ r, 0 < Cert.Spec.sumSq X r)
    (r : Fin 64) (k : Fin 2048) : ∃ a : ℝ, Cert.Spec.xhat X r k = (a : EReal) := by
  obtain ⟨b, hb0, hb⟩ := sqrt_real_of_pos (sumSq_real X hX r) (hpos r)
  unfold Cert.Spec.xhat
  rw [hb]
  exact IsReal.div_coe (hX r k) hb0

/-- The similarities are real numbers. -/
theorem sim_real (hX : ∀ r k, ∃ a : ℝ, X r k = (a : EReal)) (hF : ∀ j k, ∃ a : ℝ, Fm j k = (a : EReal))
    (hpos : ∀ r, 0 < Cert.Spec.sumSq X r) (r : Fin 64) (j : Fin 16384) :
    ∃ a : ℝ, Cert.Spec.sim X Fm r j = (a : EReal) := by
  unfold Cert.Spec.sim
  exact IsReal.sum_univ _ (fun k => IsReal.mul (xhat_real X hX hpos r k) (hF j k))

/-- THE LOGITS ARE REAL: every similarity divided by the temperature is a real number. -/
theorem logit_real (hX : ∀ r k, ∃ a : ℝ, X r k = (a : EReal)) (hF : ∀ j k, ∃ a : ℝ, Fm j k = (a : EReal))
    (hpos : ∀ r, 0 < Cert.Spec.sumSq X r) (r : Fin 64) (j : Fin 16384) :
    ∃ a : ℝ, Cert.Spec.logit X Fm r j = (a : EReal) := by
  unfold Cert.Spec.logit
  rw [temp_eq]
  exact IsReal.div_coe (sim_real X Fm hX hF hpos r j) (by norm_num)

end Cert.PcC

end
-- ==== Proof.PcCLogits.lean ====
/-
  Under the input precondition the logits and the targets are real numbers.

  The precondition gives that every entry of the inputs, the targets and the feature bank is a real number and that
  every input row has a positive sum of squares; hence every logit (a similarity of a unit row to a bank row divided by
  the temperature) is a real number.
-/
import proofs.«107741_j23519240913060_1_alg».proof.Proof.PcCPre
import proofs.«107741_j23519240913060_1_alg».proof.Proof.PcCReal

noncomputable section

namespace Cert.PcC

open Idealize.ShloMosaic Idealize.ShloMosaic.ValueIdx Cert.Pre_finite_inputs

variable [Facts]

/-- FROM THE PRECONDITION: the logits of the input arrays and the targets are real numbers. -/
theorem pre_logit_real (x : FVec Ideal S64x2048 .f32) (t : FVec Ideal S64x16384 .f32) (cid : IVec S64 32)
    (f : FVec Ideal S16384x2048 .f32)
    (h : Cert.Pre_finite_inputs.fn (F := Ideal) x t cid f = fun _ => 1#1) :
    (∀ (r : Fin 64) (j : Fin 16384),
        ∃ a : ℝ, Cert.Spec.logit (fun r k => x (ix2 r k)) (fun j k => f (ix2 j k)) r j = (a : EReal))
      ∧ ∀ (r : Fin 64) (j : Fin 16384), ∃ a : ℝ, t (ix2 r j) = (a : EReal) := by
  obtain ⟨hx, ht, hf, hpos⟩ := pre_decode x t cid f h
  exact ⟨logit_real _ _ (fun r k => hx (ix2 r k)) (fun j k => hf (ix2 j k)) hpos, fun r j => ht (ix2 r j)⟩

end Cert.PcC

end
-- ==== Proof.PcCBridgeTiles.lean ====
/-
  A column tile of a [64, 16384] array, read entry by entry.

  Column tile b is the array's 64 rows and its columns b * 2048 to b * 2048 + 2047, so its entry (r, q) is the array's
  entry (r, b * 2048 + q).
-/
import proofs.«107741_j23519240913060_1_alg».proof.Proof.KiPieces
import Idealize.ShloMosaic.Lib.ValueIdx

noncomputable section

namespace Cert.PcC

open Idealize.ShloMosaic Idealize.ShloMosaic.ValueIdx Cert.KernelIdeal Cert.KernelIdeal.Gen Cert.KernelIdeal.Body

variable {F : FTy → Type} [FloatOps F] [Named F]

/-- A 2048-column window of a [64, 16384] array starting at column o reads, at (r, q), the entry (r, o + q). -/
theorem ld_columns (X : Vec F S64x16384 .f32) (o : Nat) (inb : ∀ a, (![0, o] : Fin 2 → Nat) a + S64x2048.size a ≤ S64x16384.size a)
    (r : Fin 64) (q : Fin 2048) (h : o + q.val < 16384) :
    View.ld X (Rect.unit (s := S64x16384) ![0, o] S64x2048.size inb) (ix2 r q) = X (ix2 r ⟨o + q.val, h⟩) := by
  refine congrArg X (funext fun a => Fin.ext ?_)
  match a with
  | ⟨0, _⟩ => show 0 + 1 * r.val = r.val; omega
  | ⟨1, _⟩ => show o + 1 * q.val = o + q.val; omega

/-- COLUMN TILE b AT AN ENTRY: the array's entry (r, b * 2048 + q). -/
theorem tilesOf_apply (X : Vec F S64x16384 .f32) (b : Fin 8) (r : Fin 64) (q : Fin 2048) :
    tilesOf X b (ix2 r q) = X (ix2 r ⟨b.val * 2048 + q.val, by have := b.isLt; have := q.isLt; omega⟩) := by
  have hq := q.isLt
  match b with
  | ⟨0, _⟩ => exact (ld_columns X 0 _ r q (by omega)).trans (congrArg (fun j => X (ix2 r j)) (Fin.ext (by show 0 + q.val = 0 * 2048 + q.val; omega)))
  | ⟨1, _⟩ => exact (ld_columns X 2048 _ r q (by omega)).trans (congrArg (fun j => X (ix2 r j)) (Fin.ext (by show 2048 + q.val = 1 * 2048 + q.val; omega)))
  | ⟨2, _⟩ => exact (ld_columns X 4096 _ r q (by omega)).trans (congrArg (fun j => X (ix2 r j)) (Fin.ext (by show 4096 + q.val = 2 * 2048 + q.val; omega)))
  | ⟨3, _⟩ => exact (ld_columns X 6144 _ r q (by omega)).trans (congrArg (fun j => X (ix2 r j)) (Fin.ext (by show 6144 + q.val = 3 * 2048 + q.val; omega)))
  | ⟨4, _⟩ => exact (ld_columns X 8192 _ r q (by omega)).trans (congrArg (fun j => X (ix2 r j)) (Fin.ext (by show 8192 + q.val = 4 * 2048 + q.val; omega)))
  | ⟨5, _⟩ => exact (ld_columns X 10240 _ r q (by omega)).trans (congrArg (fun j => X (ix2 r j)) (Fin.ext (by show 10240 + q.val = 5 * 2048 + q.val; omega)))
  | ⟨6, _⟩ => exact (ld_columns X 12288 _ r q (by omega)).trans (congrArg (fun j => X (ix2 r j)) (Fin.ext (by show 12288 + q.val = 6 * 2048 + q.val; omega)))
  | ⟨7, _⟩ => exact (ld_columns X 14336 _ r q (by omega)).trans (congrArg (fun j => X (ix2 r j)) (Fin.ext (by show 14336 + q.val = 7 * 2048 + q.val; omega)))

end Cert.PcC

end
-- ==== Proof.PcCBridgeBlocks.lean ====
/-
  The blocks the grid points read, entry by entry.

  The inputs and the targets are read whole at every grid point (their block index is (0, 0) throughout), so a block
  entry is the array's entry at the same place. The feature bank is read in blocks of 1024 rows, block t at point t,
  so entry (q, k) of point t's block is the bank's entry (t * 1024 + q, k).
-/
import proofs.«107741_j23519240913060_1_alg».proof.Proof.Gen.KernelIdeal.Frame
import Idealize.ShloMosaic.Lib.ValueIdx

set_option maxRecDepth 16384

noncomputable section

namespace Cert.PcC

open Cert.KernelIdeal Cert.KernelIdeal.Gen
open Idealize.ShloMosaic Idealize.ShloMosaic.TcCoe Idealize.ShloMosaic.ValueIdx Idealize.SL.Sem

variable {F : FTy → Type} [FloatOps F] [Named F]

variable (m : (ℓ : Loc nD τ sig) → Buf (Elt F) ℓ)

/-- The block index maps over the grid: the inputs' and the targets' block is (0, 0) at every point, the bank's is
    (t, 0) at point t. -/
theorem block_index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The inputs' block at any point is the inputs. -/
theorem iblk0_apply (c : Dev nD) (t : Fin cfg0.N) (r : Fin 64) (k : Fin 2048) :
    iblk m c 0 t (ix2 r k) = m ((c : Thread nD τ).loc main_arg0) (ix2 r k) := by
  obtain ⟨e0, e1, -⟩ := block_index_facts t
  show V m c main_arg0 (((cfg0.win 0).blk t).view.emb (ix2 r k)) = V m c main_arg0 (ix2 r k)
  refine congrArg _ (funext fun a => Fin.ext ?_)
  match a with
  | ⟨0, _⟩ => show win0_0.index t (0 : Fin 2) * 64 + 1 * r.val = r.val; omega
  | ⟨1, _⟩ => show win0_0.index t (1 : Fin 2) * 2048 + 1 * k.val = k.val; omega

/-- The targets' block at any point is the targets. -/
theorem iblk1_apply (c : Dev nD) (t : Fin cfg0.N) (r : Fin 64) (j : Fin 16384) :
    iblk m c 1 t (ix2 r j) = m ((c : Thread nD τ).loc main_arg1) (ix2 r j) := by
  obtain ⟨-, -, e0, e1, -⟩ := block_index_facts t
  show V m c main_arg1 (((cfg0.win 1).blk t).view.emb (ix2 r j)) = V m c main_arg1 (ix2 r j)
  refine congrArg _ (funext fun a => Fin.ext ?_)
  match a with
  | ⟨0, _⟩ => show win0_1.index t (0 : Fin 2) * 64 + 1 * r.val = r.val; omega
  | ⟨1, _⟩ => show win0_1.index t (1 : Fin 2) * 16384 + 1 * j.val = j.val; omega

/-- The bank's block at point t is its rows t * 1024 to t * 1024 + 1023. -/
theorem iblk2_apply (c : Dev nD) (t : Fin cfg0.N) (q : Fin 1024) (k : Fin 2048) :
    iblk m c 2 t (ix2 q k)
      = m ((c : Thread nD τ).loc main_arg3)
          (ix2 ⟨t.val * 1024 + q.val, by have h : t.val < 16 := lt_of_lt_of_eq t.isLt (show cfg0.N = 16 from N_0); have := q.isLt; omega⟩ k) := by
  obtain ⟨-, -, -, -, e0, e1⟩ := block_index_facts t
  show V m c main_arg3 (((cfg0.win 2).blk t).view.emb (ix2 q k)) = V m c main_arg3 _
  refine congrArg _ (funext fun a => Fin.ext ?_)
  match a with
  | ⟨0, _⟩ => show win0_2.index t (0 : Fin 2) * 1024 + 1 * q.val = t.val * 1024 + q.val; omega
  | ⟨1, _⟩ => show win0_2.index t (1 : Fin 2) * 2048 + 1 * k.val = k.val; omega

end Cert.PcC

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.PcCNorm.lean ====
/-
  The row normalisation, read entry by entry on the extended reals.

  The first grid point divides each input entry by the square root of its row's sum of squares: the row sum is kept as
  a column, its square root taken, and the column spread back over the row's 2048 entries. At entry (r, k) this is
  the entry divided by the square root of row r's sum of squares, for every extended real input.
-/
import proofs.«107741_j23519240913060_1_alg».proof.Proof.Gen.KernelIdeal.Skeleton
import proofs.«107741_j23519240913060_1_alg».proof.Proof.Spec
import proofs.«107741_j23519240913060_1_alg».proof.Proof.LibRowReduce
import proofs.«107741_j23519240913060_1_alg».proof.Proof.LibColumnLayout
import Idealize.ShloMosaic.Lib.Pipeline.Value
import Idealize.ShloMosaic.Lib.ValueIdx
import Idealize.ShloMosaic.PureOps.Ideal.Laws

noncomputable section

namespace Cert.PcC

open Idealize.ShloMosaic Idealize.ShloMosaic.ValueIdx Cert.KernelIdeal Cert.KernelIdeal.Gen

/-- THE UNIT ROWS AT AN ENTRY: entry (r, k) divided by the square root of row r's sum of squares. -/
theorem pay1_apply (x0 : Vec Ideal S64x2048 .f32) (r : Fin 64) (k : Fin 2048) :
    k0_pay1 (F := Ideal) x0 (ix2 r k) = Cert.Spec.xhat (fun r k => x0 (ix2 r k)) r k := by
  unfold k0_pay1
  refine (congrFun (shapeCast_self _ _) (ix2 r k)).trans ?_
  show Ideal.div (x0 (ix2 r k))
      (broadcastTo S64x2048 (sqrt (F := Ideal) (shapeCast S64x1
        (multiReduction (F := Ideal) .add [1] S64 (mulf x0 x0) 0x00000000#32 reduces_S64x2048_S64 (.inl rfl) rfl)
        shapeCasts_S64_S64x1)) broadcasts_S64x1_S64x2048 (ix2 r k))
    = Ideal.div (x0 (ix2 r k)) (Ideal.sqrt (∑ k' : Fin 2048, x0 (ix2 r k') * x0 (ix2 r k')))
  refine congrArg (Ideal.div _) ?_
  refine (LibColumnLayout.broadcastTo_a1_ab_apply _ _ r k).trans ?_
  show Ideal.sqrt (shapeCast S64x1
        (multiReduction (F := Ideal) .add [1] S64 (mulf x0 x0) 0x00000000#32 reduces_S64x2048_S64 (.inl rfl) rfl)
        shapeCasts_S64_S64x1 (ix2 r (0 : Fin 1)))
    = Ideal.sqrt (∑ k' : Fin 2048, x0 (ix2 r k') * x0 (ix2 r k'))
  refine congrArg Ideal.sqrt ?_
  refine (LibColumnLayout.shapeCast_a_a1_apply _ _ r (0 : Fin 1)).trans ?_
  exact LibRowReduce.multiReduction_add_row (mulf x0 x0) _ _ _ _ r

end Cert.PcC

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.PcCTile.lean ====
/-
  One column tile of the scaled similarities, read entry by entry on the extended reals.

  Each grid point multiplies the 64 unit rows with 1024 rows of the feature bank, contracting the 2048 features, and
  scales the products by the named reciprocal of the temperature. The temperature's word denotes 13421773 / 2^28 and
  the named reciprocal is 2^28 / 13421773, so the scaled entry is the contraction divided by the temperature: division
  by a nonzero real number is the product with its reciprocal, at the infinities too, so this holds for every
  extended real value of the sum.
-/
import proofs.«107741_j23519240913060_1_alg».proof.Proof.Gen.KernelIdeal.Skeleton
import proofs.«107741_j23519240913060_1_alg».proof.Proof.Spec
import proofs.«107741_j23519240913060_1_alg».proof.Proof.LibContract
import proofs.«107741_j23519240913060_1_alg».proof.Proof.PcCConst
import Idealize.ShloMosaic.Lib.Pipeline.Value
import Idealize.ShloMosaic.Lib.ValueIdx
import Idealize.ShloMosaic.PureOps.IdealRules
import Idealize.ShloMosaic.PureOps.Ideal.Laws

noncomputable section

namespace Cert.PcC

open Idealize.ShloMosaic Idealize.ShloMosaic.ValueIdx Cert.KernelIdeal Cert.KernelIdeal.Gen

/-- The contraction of a [64, 2048] matrix with a [1024, 2048] matrix over the second axis of both. -/
abbrev tileDims : DotDims S64x2048 S1024x2048 S64x1024 := dot_S64x2048_S1024x2048_S64x1024_1_1_0_0_n_n

/-- The left operand's row is the output's row. -/
theorem tile_lhs0 (i : S64x1024.Idx) (c : tileDims.contr.Idx) : (tileDims.lhsIdx i c 0).val = (i 0).val := by
  unfold DotDims.lhsIdx
  rw [dif_neg (show ¬(0 : Fin S64x2048.rank) ∈ tileDims.lhsBatch by decide),
    dif_pos (show (0 : Fin S64x2048.rank) ∈ tileDims.lhsNonContracting by decide)]
  rfl

/-- The left operand's column is the contracted coordinate. -/
theorem tile_lhs1 (i : S64x1024.Idx) (c : tileDims.contr.Idx) : (tileDims.lhsIdx i c 1).val = (c ⟨0, by decide⟩).val :=
  tileDims.lhsIdx_val_of_single rfl i c

/-- The right operand's row is the output's column. -/
theorem tile_rhs0 (i : S64x1024.Idx) (c : tileDims.contr.Idx) : (tileDims.rhsIdx i c 0).val = (i 1).val := by
  unfold DotDims.rhsIdx
  rw [dif_neg (show ¬(0 : Fin S1024x2048.rank) ∈ tileDims.rhsBatch by decide),
    dif_pos (show (0 : Fin S1024x2048.rank) ∈ tileDims.rhsNonContracting by decide)]
  rfl

/-- The right operand's column is the contracted coordinate. -/
theorem tile_rhs1 (i : S64x1024.Idx) (c : tileDims.contr.Idx) : (tileDims.rhsIdx i c 1).val = (c ⟨0, by decide⟩).val :=
  tileDims.rhsIdx_val_of_single rfl i c

/-- The named reciprocal of the temperature is the rational 2^28 / 13421773. -/
theorem inv_temp_eq :
    Named.named (F := Ideal) Cert.KernelIdeal.κ "inv_temp" (φ := .f32) 0x41A00000#32 = ((268435456 / 13421773 : ℝ) : EReal) :=
  IdealRules.named_const.ideal_named_scalar _ _ _ _ rfl

/-- THE TILE AT AN ENTRY: row r of the left operand contracted with row q of the right one, divided by the
    temperature. -/
theorem pay2_apply (xs : Vec Ideal S64x2048 .f32) (x2 : Vec Ideal S1024x2048 .f32) (r : Fin 64) (q : Fin 1024) :
    k0_pay2 (F := Ideal) xs x2 (ix2 r q)
      = Ideal.div (∑ k : Fin 2048, xs (ix2 r k) * x2 (ix2 q k)) Cert.Spec.temp := by
  unfold k0_pay2
  refine (congrFun (shapeCast_self _ _) (ix2 r q)).trans ?_
  show FloatOps.matmul tileDims none (φ₁ := .bf16) (φ₂ := .bf16) xs x2 (constant S64x1024 .f32 0x00000000#32) (ix2 r q)
      * Named.named (F := Ideal) Cert.KernelIdeal.κ "inv_temp" (φ := .f32) 0x41A00000#32 = _
  rw [inv_temp_eq, div_temp]
  refine congrArg (· * _) ?_
  refine LibContract.matmul_zero_apply tileDims 2048 rfl rfl none xs x2 (ix2 r q) (fun k => ix2 r k) (fun k => ix2 q k)
    (fun c i hc => funext fun a => Fin.ext ?_) (fun c i hc => funext fun a => Fin.ext ?_)
  · match a with
    | ⟨0, _⟩ => exact tile_lhs0 _ _
    | ⟨1, _⟩ => exact (tile_lhs1 _ _).trans hc
  · match a with
    | ⟨0, _⟩ => exact tile_rhs0 _ _
    | ⟨1, _⟩ => exact (tile_rhs1 _ _).trans hc

end Cert.PcC

end
-- ==== Proof.PcCBridgeLogit.lean ====
/-
  The kernel's logits array is the specification's logits, entry by entry.

  Entry (r, j) of the logits array is point (j / 1024)'s tile at (r, j % 1024): the unit row r contracted with row
  j % 1024 of that point's block of the bank, divided by the temperature. The unit rows are the inputs' rows scaled to
  unit length, and row j % 1024 of block j / 1024 of the bank is the bank's row j, since
  (j / 1024) * 1024 + j % 1024 = j. This holds for every extended real input.
-/
import proofs.«107741_j23519240913060_1_alg».proof.Proof.KiDefs
import proofs.«107741_j23519240913060_1_alg».proof.Proof.Spec
import proofs.«107741_j23519240913060_1_alg».proof.Proof.PcCNorm
import proofs.«107741_j23519240913060_1_alg».proof.Proof.PcCTile
import proofs.«107741_j23519240913060_1_alg».proof.Proof.PcCBridgeBlocks

set_option maxRecDepth 16384

noncomputable section

namespace Cert.PcC

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ) (c : Dev nD)

/-- The unit rows the kernel keeps are the inputs' rows scaled to unit length. -/
theorem unitRows_apply (r : Fin 64) (k : Fin 2048) :
    unitRows (F := Ideal) m c (ix2 r k)
      = Cert.Spec.xhat (fun r k => m ((c : Thread nD τ).loc main_arg0) (ix2 r k)) r k := by
  have hX : (fun (r : Fin 64) (k : Fin 2048) => iblk m c 0 tFirst (ix2 r k))
      = fun r k => m ((c : Thread nD τ).loc main_arg0) (ix2 r k) :=
    funext fun r => funext fun k => iblk0_apply m c tFirst r k
  refine (pay1_apply (iblk m c 0 tFirst) r k).trans ?_
  rw [hX]

/-- Row q of point t's block of the bank, for the point and the local row of column j, is the bank's row j. -/
theorem bank_row (j : Fin 16384) (k : Fin 2048) :
    iblk m c 2 (pointOf j) (ix2 (localOf j) k) = m ((c : Thread nD τ).loc main_arg3) (ix2 j k) := by
  refine (iblk2_apply m c (pointOf j) (localOf j) k).trans ?_
  refine congrArg (fun i => m ((c : Thread nD τ).loc main_arg3) (ix2 i k)) (Fin.ext ?_)
  show j.val / 1024 * 1024 + j.val % 1024 = j.val
  omega

/-- THE LOGITS ARRAY AT AN ENTRY: the specification's logit of the inputs and the bank. -/
theorem logitArr_apply (r : Fin 64) (j : Fin 16384) :
    logitArr (F := Ideal) m c (ix2 r j)
      = Cert.Spec.logit (fun r k => m ((c : Thread nD τ).loc main_arg0) (ix2 r k))
          (fun j k => m ((c : Thread nD τ).loc main_arg3) (ix2 j k)) r j := by
  show k0_pay2 (F := Ideal) (unitRows m c) (iblk m c 2 (pointOf j)) (ix2 r (localOf j)) = _
  refine (pay2_apply (unitRows m c) (iblk m c 2 (pointOf j)) r (localOf j)).trans ?_
  unfold Cert.Spec.logit Cert.Spec.sim
  refine congrArg (fun s => Ideal.div s Cert.Spec.temp) (Finset.sum_congr rfl fun k _ => ?_)
  rw [unitRows_apply, bank_row]

end Cert.PcC

end
-- ==== Proof.PcCBridgeOut.lean ====
/-
  The kernel's one number is the specification's loss.

  The kernel's result is its last grid point's arithmetic on the eight column tiles of the logits array and of the
  targets. Tile b of an array at (r, q) is the array's entry (r, b * 2048 + q); the logits array is the
  specification's logits of the inputs and the bank; and under the input precondition the logits and the targets are
  real numbers. So whenever the last point's arithmetic on tiles of real logits and real targets is the loss, the
  kernel's result is the loss of the specification's logits and the targets.
-/
import proofs.«107741_j23519240913060_1_alg».proof.Proof.KiDefs
import proofs.«107741_j23519240913060_1_alg».proof.Proof.Spec
import proofs.«107741_j23519240913060_1_alg».proof.Proof.PcCLogits
import proofs.«107741_j23519240913060_1_alg».proof.Proof.PcCBridgeTiles
import proofs.«107741_j23519240913060_1_alg».proof.Proof.PcCBridgeBlocks
import proofs.«107741_j23519240913060_1_alg».proof.Proof.PcCBridgeLogit

set_option maxRecDepth 16384

noncomputable section

namespace Cert.PcC

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ) (c : Dev nD)

/-- A [1, 1] array has the one index (0, 0). -/
theorem idx_one_one (y : S1x1.Idx) : y = ix2 (0 : Fin 1) (0 : Fin 1) :=
  (eq_ix2 y).trans (congrArg₂ (ix2 (n0 := 1) (n1 := 1)) (Subsingleton.elim _ _) (Subsingleton.elim _ _))

/-- THE KERNEL'S RESULT, given that the last point's arithmetic on tiles of real logits and real targets is the
    loss: the loss of the specification's logits of the inputs and the bank, and of the targets. -/
theorem outVal_eq_of [Cert.Pre_finite_inputs.Facts]
    (hB : ∀ (s t : Fin 8 → Vec Ideal S64x2048 .f32) (L T : Fin 64 → Fin 16384 → EReal),
      (∀ (b : Fin 8) (r : Fin 64) (q : Fin 2048), s b (ix2 r q) = L r ⟨b.val * 2048 + q.val, by omega⟩) →
      (∀ (b : Fin 8) (r : Fin 64) (q : Fin 2048), t b (ix2 r q) = T r ⟨b.val * 2048 + q.val, by omega⟩) →
      (∀ r j, ∃ a : ℝ, L r j = (a : EReal)) → (∀ r j, ∃ a : ℝ, T r j = (a : EReal)) →
      Cert.KvB.lossTiles (F := Ideal) s t (ix2 (0 : Fin 1) (0 : Fin 1)) = Cert.Spec.loss L T)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    outVal (F := Ideal) m c
      = fun _ => Cert.Spec.loss
          (Cert.Spec.logit (fun r k => m ((c : Thread nD τ).loc main_arg0) (ix2 r k))
            (fun j k => m ((c : Thread nD τ).loc main_arg3) (ix2 j k)))
          (fun r j => m ((c : Thread nD τ).loc main_arg1) (ix2 r j)) := by
  obtain ⟨hL, hT⟩ := pre_logit_real _ _ _ _ hpre
  funext y
  rw [idx_one_one y]
  unfold outVal
  exact hB (tilesOf (logitArr m c)) (tilesOf (iblk m c 1 tLast))
    (Cert.Spec.logit (fun r k => m ((c : Thread nD τ).loc main_arg0) (ix2 r k))
      (fun j k => m ((c : Thread nD τ).loc main_arg3) (ix2 j k)))
    (fun r j => m ((c : Thread nD τ).loc main_arg1) (ix2 r j))
    (fun b r q => (tilesOf_apply (logitArr m c) b r q).trans (logitArr_apply m c r _))
    (fun b r q => (tilesOf_apply (iblk m c 1 tLast) b r q).trans (iblk1_apply m c tLast r _))
    hL hT

end Cert.PcC

end
-- ==== Proof.LibColReduce.lean ====
/-
  A reduction over the FIRST axis of a matrix, read at a coordinate.

  A matrix `[a, b]` summed over its row axis gives, at column `c`, the sum over `r : Fin a` of the entry `(r, c)`:
  the library states the sum over the reduced index with the coordinate re-inserted; here the re-inserted index is
  written by its coordinates. (The companion of the last-axis forms.) Library imports only.
-/
import Idealize.ShloMosaic.PureOps.Ideal.Laws
import Idealize.ShloMosaic.Lib.ValueIdx

noncomputable section

namespace Cert.LibColReduce

open Idealize.ShloMosaic Idealize.ShloMosaic.ValueIdx

variable {φ : FTy}

/-- Column `c` with row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d; apply Fin.ext
  fin_cases d <;> rfl

/-- A sum of a matrix down its rows, at column `c`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

end Cert.LibColReduce

end
-- ==== Proof.KvBOps.lean ====
/-
  The last grid point's operations read at coordinates.

  Every column vector of the kernel (a value per row, shape 64 by 1) is read at `(r, 0)`, every tile
  (64 by 2048) at `(r, q)`.  A row reduction kept as a column reads as the row's maximum or sum; a column
  spread over a tile reads as the column's entry of that row; the final reduction over the 64 rows reads
  as their sum.  With these, each pure piece of the last grid point is given at row `r` as an expression
  in three row functions of a tile: the row maximum `rmax`, the row sum of exponentials `rsumexp` and the
  row sum of cross-entropy summands `rterm`.
-/
import proofs.«107741_j23519240913060_1_alg».proof.Proof.Gen.KernelIdeal.Skeleton
import proofs.«107741_j23519240913060_1_alg».proof.Proof.LibRowReduce
import proofs.«107741_j23519240913060_1_alg».proof.Proof.LibColumnLayout
import proofs.«107741_j23519240913060_1_alg».proof.Proof.LibColReduce
import proofs.«107741_j23519240913060_1_alg».proof.Proof.LibFiniteMax

noncomputable section

namespace Cert.KvB

open Idealize.ShloMosaic Idealize.ShloMosaic.ValueIdx Cert.KernelIdeal Cert.KernelIdeal.Gen

/-! ## Row functions of a tile -/

/-- The largest entry of row `r` of a tile. -/
def rmax (x : FVec Ideal S64x2048 .f32) (r : Fin 64) : EReal :=
  (Finset.univ : Finset (Fin 2048)).sup fun q => x (ix2 r q)

/-- The sum over row `r` of a tile of exp (entry - c). -/
def rsumexp (x : FVec Ideal S64x2048 .f32) (r : Fin 64) (c : EReal) : EReal :=
  ∑ q : Fin 2048, Ideal.exp (x (ix2 r q) - c)

/-- The sum over row `r` of (0 - exp (target - tlse)) * (logit - lse). -/
def rterm (x y : FVec Ideal S64x2048 .f32) (r : Fin 64) (lse tlse : EReal) : EReal :=
  ∑ q : Fin 2048, (0 - Ideal.exp (y (ix2 r q) - tlse)) * (x (ix2 r q) - lse)

/-! ## Single operations -/

/-- A fold of `max` from the bottom element is the supremum. -/
theorem fold_max_bot_eq_sup {ι : Type} (S : Finset ι) (f : ι → EReal) : S.fold max ⊥ f = S.sup f := by
  classical
  induction S using Finset.induction_on with
  | empty => simp
  | insert a s ha ih => rw [Finset.fold_insert ha, Finset.sup_insert, ih]

theorem exp_apply {s : Shape} (x : FVec Ideal s .f32) (i : s.Idx) : exp x i = Ideal.exp (x i) := rfl

theorem log_apply {s : Shape} (x : FVec Ideal s .f32) (i : s.Idx) : log x i = Ideal.log (x i) := rfl

/-- The zero word spread over any shape reads 0. -/
theorem zero_splat_apply (s : Shape) (i : s.Idx) :
    (broadcast s (Scalar.ofBits (F := Ideal) .f32 0x00000000#32) : FVec Ideal s .f32) i = 0 :=
  Ideal.ofBits_zero_f32

/-- The word of minus infinity spread over any shape reads the bottom element. -/
theorem neginf_splat_apply (s : Shape) (i : s.Idx) :
    (broadcast s (Scalar.ofBits (F := Ideal) .f32 0xFF800000#32) : FVec Ideal s .f32) i = ⊥ :=
  LibFiniteMax.ofBits_neg_inf

/-- A vector of 64 entries kept as a column. -/
theorem cast_col_apply (v : FVec Ideal S64 .f32) (r : Fin 64) :
    (shapeCast S64x1 v shapeCasts_S64_S64x1 : FVec Ideal S64x1 .f32) (ix2 r (0 : Fin 1)) = v (ix1 r) :=
  LibColumnLayout.shapeCast_a_a1_apply v shapeCasts_S64_S64x1 r 0

/-- A column spread over a tile. -/
theorem bcast_col_apply (v : FVec Ideal S64x1 .f32) (r : Fin 64) (q : Fin 2048) :
    (broadcastTo S64x2048 v broadcasts_S64x1_S64x2048 : FVec Ideal S64x2048 .f32) (ix2 r q) = v (ix2 r (0 : Fin 1)) :=
  LibColumnLayout.broadcastTo_a1_ab_apply v broadcasts_S64x1_S64x2048 r q

/-- The row sums of a tile. -/
theorem rowsum_apply (x : FVec Ideal S64x2048 .f32) (r : Fin 64) :
    (multiReduction .add [1] S64 x 0x00000000#32 reduces_S64x2048_S64 (.inl rfl) rfl : FVec Ideal S64 .f32) (ix1 r)
      = ∑ q : Fin 2048, x (ix2 r q) :=
  LibRowReduce.multiReduction_add_row x _ _ _ _ r

/-- The row maxima of a tile. -/
theorem rowmax_apply (x : FVec Ideal S64x2048 .f32) (r : Fin 64) :
    (multiReduction .maximumf [1] S64 x 0xFF800000#32 reduces_S64x2048_S64 (.inl rfl) rfl : FVec Ideal S64 .f32) (ix1 r)
      = rmax x r := by
  refine (LibRowReduce.multiReduction_max_row x _ _ _ _ r).trans ?_
  rw [LibFiniteMax.ofBits_neg_inf]
  exact fold_max_bot_eq_sup _ _

/-- The sum of a column over its 64 rows, kept as a 1 by 1 array. -/
theorem colsum_apply (v : FVec Ideal S64x1 .f32) :
    (shapeCast S1x1 (multiReduction .add [0] S1 v 0x00000000#32 reduces_S64x1_S1 (.inl rfl) rfl) shapeCasts_S1_S1x1
        : FVec Ideal S1x1 .f32) (ix2 (0 : Fin 1) (0 : Fin 1))
      = ∑ r : Fin 64, v (ix2 r (0 : Fin 1)) :=
  (LibColumnLayout.shapeCast_a_a1_apply _ shapeCasts_S1_S1x1 (0 : Fin 1) (0 : Fin 1)).trans
    (LibColReduce.multiReduction_add_col v _ _ _ _ (0 : Fin 1))

/-! ## The pure pieces at row `r` -/

/-- Four tiles of the running maximum, from the bottom element. -/
theorem pay4_apply (a b c d : FVec Ideal S64x2048 .f32) (r : Fin 64) :
    k0_pay4 (F := Ideal) a b c d (ix2 r (0 : Fin 1))
      = max (max (max (max ⊥ (rmax a r)) (rmax b r)) (rmax c r)) (rmax d r) := by
  unfold k0_pay4
  simp only [maximumf_apply, cast_col_apply, neginf_splat_apply]
  rw [rowmax_apply, rowmax_apply, rowmax_apply, rowmax_apply]

/-- Four more tiles of the running maximum. -/
theorem pay6_apply (m : FVec Ideal S64x1 .f32) (a b c d : FVec Ideal S64x2048 .f32) (r : Fin 64) :
    k0_pay6 (F := Ideal) m a b c d (ix2 r (0 : Fin 1))
      = max (max (max (max (m (ix2 r (0 : Fin 1))) (rmax a r)) (rmax b r)) (rmax c r)) (rmax d r) := by
  unfold k0_pay6
  simp only [maximumf_apply, cast_col_apply]
  rw [rowmax_apply, rowmax_apply, rowmax_apply, rowmax_apply]

theorem pay8_apply (r : Fin 64) : k0_pay8 (F := Ideal) (ix2 r (0 : Fin 1)) = 0 := by
  unfold k0_pay8
  exact zero_splat_apply _ _

theorem pay16_apply (r : Fin 64) : k0_pay16 (F := Ideal) (ix2 r (0 : Fin 1)) = 0 := by
  unfold k0_pay16
  exact zero_splat_apply _ _

/-- Three tiles of the running sum of exponentials. -/
theorem pay10_apply (m l : FVec Ideal S64x1 .f32) (a b c : FVec Ideal S64x2048 .f32) (r : Fin 64) :
    k0_pay10 (F := Ideal) m l a b c (ix2 r (0 : Fin 1))
      = l (ix2 r (0 : Fin 1)) + rsumexp a r (m (ix2 r (0 : Fin 1))) + rsumexp b r (m (ix2 r (0 : Fin 1)))
          + rsumexp c r (m (ix2 r (0 : Fin 1))) := by
  unfold k0_pay10
  simp only [addf_apply, cast_col_apply]
  rw [rowsum_apply, rowsum_apply, rowsum_apply]
  simp only [exp_apply, subf_apply, bcast_col_apply]
  rfl

/-- The last two tiles of the running sum, then the log-sum-exp: maximum + log (sum). -/
theorem pay14_apply (m l : FVec Ideal S64x1 .f32) (a b : FVec Ideal S64x2048 .f32) (r : Fin 64) :
    k0_pay14 (F := Ideal) m l a b (ix2 r (0 : Fin 1))
      = m (ix2 r (0 : Fin 1))
          + Ideal.log (l (ix2 r (0 : Fin 1)) + rsumexp a r (m (ix2 r (0 : Fin 1))) + rsumexp b r (m (ix2 r (0 : Fin 1)))) := by
  unfold k0_pay14
  simp only [addf_apply, log_apply, cast_col_apply]
  rw [rowsum_apply, rowsum_apply]
  simp only [exp_apply, subf_apply, bcast_col_apply]
  rfl

/-- A logit tile minus the logits' log-sum-exp. -/
theorem pay17_apply (m l : FVec Ideal S64x1 .f32) (a b x : FVec Ideal S64x2048 .f32) (r : Fin 64) (q : Fin 2048) :
    k0_pay17 (F := Ideal) m l a b x (ix2 r q) = x (ix2 r q) - k0_pay14 (F := Ideal) m l a b (ix2 r (0 : Fin 1)) := by
  unfold k0_pay17
  simp only [subf_apply, bcast_col_apply]

/-- Zero minus exp (a target tile minus the targets' log-sum-exp). -/
theorem pay18_apply (m l : FVec Ideal S64x1 .f32) (a b y : FVec Ideal S64x2048 .f32) (r : Fin 64) (q : Fin 2048) :
    k0_pay18 (F := Ideal) m l a b y (ix2 r q)
      = 0 - Ideal.exp (y (ix2 r q) - k0_pay15 (F := Ideal) m l a b (ix2 r (0 : Fin 1))) := by
  unfold k0_pay18
  simp only [subf_apply, exp_apply, bcast_col_apply, zero_splat_apply]

/-- Three tiles of the running sum of summands; the first tile's factors arrive already formed. -/
theorem pay19_apply (lse tlse acc : FVec Ideal S64x1 .f32) (u w x1 y1 x2 y2 : FVec Ideal S64x2048 .f32) (r : Fin 64) :
    k0_pay19 (F := Ideal) lse tlse acc u w x1 y1 x2 y2 (ix2 r (0 : Fin 1))
      = acc (ix2 r (0 : Fin 1)) + (∑ q : Fin 2048, w (ix2 r q) * u (ix2 r q))
          + rterm x1 y1 r (lse (ix2 r (0 : Fin 1))) (tlse (ix2 r (0 : Fin 1)))
          + rterm x2 y2 r (lse (ix2 r (0 : Fin 1))) (tlse (ix2 r (0 : Fin 1))) := by
  unfold k0_pay19
  simp only [addf_apply, cast_col_apply]
  rw [rowsum_apply, rowsum_apply, rowsum_apply]
  simp only [mulf_apply, exp_apply, subf_apply, bcast_col_apply, zero_splat_apply]
  rfl

/-- One tile's row sums of summands. -/
theorem pay20_apply (lse tlse : FVec Ideal S64x1 .f32) (x y : FVec Ideal S64x2048 .f32) (r : Fin 64) :
    k0_pay20 (F := Ideal) lse tlse x y (ix1 r)
      = rterm x y r (lse (ix2 r (0 : Fin 1))) (tlse (ix2 r (0 : Fin 1))) := by
  unfold k0_pay20
  rw [rowsum_apply]
  simp only [mulf_apply, exp_apply, subf_apply, bcast_col_apply, zero_splat_apply]
  rfl

/-- Four tiles of the running sum of summands; the first tile's row sums arrive already formed. -/
theorem pay21_apply (lse tlse acc : FVec Ideal S64x1 .f32) (v : FVec Ideal S64 .f32)
    (x4 y4 x5 y5 x6 y6 : FVec Ideal S64x2048 .f32) (r : Fin 64) :
    k0_pay21 (F := Ideal) lse tlse acc v x4 y4 x5 y5 x6 y6 (ix2 r (0 : Fin 1))
      = acc (ix2 r (0 : Fin 1)) + v (ix1 r)
          + rterm x4 y4 r (lse (ix2 r (0 : Fin 1))) (tlse (ix2 r (0 : Fin 1)))
          + rterm x5 y5 r (lse (ix2 r (0 : Fin 1))) (tlse (ix2 r (0 : Fin 1)))
          + rterm x6 y6 r (lse (ix2 r (0 : Fin 1))) (tlse (ix2 r (0 : Fin 1))) := by
  unfold k0_pay21
  simp only [addf_apply, cast_col_apply]
  rw [rowsum_apply, rowsum_apply, rowsum_apply]
  simp only [mulf_apply, exp_apply, subf_apply, bcast_col_apply, zero_splat_apply]
  rfl

/-- The last tile, the sum over the 64 rows and the division by the word of 64. -/
theorem pay3_apply (lse tlse acc : FVec Ideal S64x1 .f32) (x y : FVec Ideal S64x2048 .f32) :
    k0_pay3 (F := Ideal) lse tlse acc x y (ix2 (0 : Fin 1) (0 : Fin 1))
      = Ideal.div (∑ r : Fin 64, (acc (ix2 r (0 : Fin 1))
            + rterm x y r (lse (ix2 r (0 : Fin 1))) (tlse (ix2 r (0 : Fin 1)))))
          (Ideal.ofBits .f32 0x42800000#32) := by
  unfold k0_pay3
  simp only [divf_apply, broadcast_apply]
  rw [colsum_apply]
  refine congrArg (fun z => Ideal.div z (Ideal.ofBits .f32 0x42800000#32)) (Finset.sum_congr rfl fun r _ => ?_)
  simp only [addf_apply, cast_col_apply]
  rw [rowsum_apply]
  simp only [mulf_apply, exp_apply, subf_apply, bcast_col_apply, zero_splat_apply]
  rfl

end Cert.KvB

end
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.KvBRow.lean ====
/-
  The row-level mathematics of a soft cross entropy computed tile by tile.

  A row of 16384 entries is read as 8 consecutive tiles of 2048.  The maximum of the row is the maximum
  of the tile maxima, and a sum over the row is the sum of the tile sums: both regroupings hold for
  every extended real.  The one place where the entries have to be real numbers is the pointwise law

    (0 - exp (a - (b + log S))) * (l - (m + log Z)) = (-(exp (a - b) / S)) * ((l - m) - log Z)      (S, Z > 0)

  which turns "subtract the log-sum-exp" into "subtract the maximum, then divide by / subtract the log
  of the sum of exponentials".  A row maximum of real numbers is a real number, and a sum of
  exponentials of real numbers is a positive real number, so the law applies to every summand.
-/
import proofs.«107741_j23519240913060_1_alg».proof.Proof.Spec
import proofs.«107741_j23519240913060_1_alg».proof.Proof.LibBlocks
import proofs.«107741_j23519240913060_1_alg».proof.Proof.LibFiniteMax
import proofs.«107741_j23519240913060_1_alg».proof.Proof.LibMoment
import Mathlib.Analysis.SpecialFunctions.Log.Basic
import Mathlib.Tactic

noncomputable section

namespace Cert.KvB

open Idealize.ShloMosaic

/-- Column `q` of tile `b`, as a column of the whole row. -/
def blk (b : Fin 8) (q : Fin 2048) : Fin 16384 := ⟨b.val * 2048 + q.val, by omega⟩

/-- Every column of the row lies in exactly one tile. -/
theorem exists_blk (j : Fin 16384) : ∃ (b : Fin 8) (q : Fin 2048), j = blk b q :=
  ⟨⟨j.val / 2048, by omega⟩, ⟨j.val % 2048, by omega⟩, Fin.ext (by show j.val = j.val / 2048 * 2048 + j.val % 2048; omega)⟩

/-- A running maximum over eight values, started from the bottom element. -/
def cmax8 (g : Fin 8 → EReal) : EReal :=
  max (max (max (max (max (max (max (max ⊥ (g 0)) (g 1)) (g 2)) (g 3)) (g 4)) (g 5)) (g 6)) (g 7)

/-- A running sum over eight values, started from zero. -/
def csum8 (g : Fin 8 → EReal) : EReal := 0 + g 0 + g 1 + g 2 + g 3 + g 4 + g 5 + g 6 + g 7

theorem cmax8_eq (g : Fin 8 → EReal) : cmax8 g = Finset.univ.sup g := by
  apply le_antisymm
  · unfold cmax8
    have h : ∀ b, g b ≤ Finset.univ.sup g := fun b => Finset.le_sup (Finset.mem_univ b)
    exact max_le (max_le (max_le (max_le (max_le (max_le (max_le (max_le bot_le (h 0)) (h 1)) (h 2)) (h 3)) (h 4)) (h 5)) (h 6)) (h 7)
  · have key : g 0 ≤ cmax8 g ∧ g 1 ≤ cmax8 g ∧ g 2 ≤ cmax8 g ∧ g 3 ≤ cmax8 g ∧ g 4 ≤ cmax8 g ∧ g 5 ≤ cmax8 g
        ∧ g 6 ≤ cmax8 g ∧ g 7 ≤ cmax8 g := by
      unfold cmax8
      simp only [le_max_iff, le_refl, true_or, or_true, and_self]
    obtain ⟨h0, h1, h2, h3, h4, h5, h6, h7⟩ := key
    refine Finset.sup_le fun b _ => ?_
    fin_cases b
    exacts [h0, h1, h2, h3, h4, h5, h6, h7]

theorem csum8_eq (g : Fin 8 → EReal) : csum8 g = ∑ b, g b := by
  unfold csum8
  rw [Fin.sum_univ_eight, zero_add]

/-- The maximum of a row is the running maximum of its tiles' maxima. -/
theorem max_blocks (g : Fin 16384 → EReal) :
    cmax8 (fun b => Finset.univ.sup fun q => g (blk b q)) = Finset.univ.sup g := by
  rw [cmax8_eq]
  apply le_antisymm
  · exact Finset.sup_le fun b _ => Finset.sup_le fun q _ => Finset.le_sup (Finset.mem_univ _)
  · refine Finset.sup_le fun j _ => ?_
    obtain ⟨b, q, rfl⟩ := exists_blk j
    exact (Finset.le_sup (f := fun q => g (blk b q)) (Finset.mem_univ q)).trans
      (Finset.le_sup (f := fun b => Finset.univ.sup fun q => g (blk b q)) (Finset.mem_univ b))

/-- A sum over a row is the running sum of its tiles' sums. -/
theorem sum_blocks8 (f : Fin 16384 → EReal) : csum8 (fun b => ∑ q, f (blk b q)) = ∑ j, f j := by
  rw [csum8_eq]
  exact LibBlocks.sum_blocks (B := 8) (T := 2048) (R := 16384) (by norm_num) f

/-- The pointwise law, on real numbers. -/
theorem term_law (a b l m S Z : ℝ) (hS : 0 < S) (hZ : 0 < Z) :
    (0 - Ideal.exp ((a : EReal) - ((b : EReal) + Ideal.log (S : EReal))))
        * ((l : EReal) - ((m : EReal) + Ideal.log (Z : EReal)))
      = (-(Ideal.div (Ideal.exp ((a : EReal) - (b : EReal))) (S : EReal)))
        * (((l : EReal) - (m : EReal)) - Ideal.log (Z : EReal)) := by
  rw [Ideal.log_coe, if_neg (not_le.mpr hS), Ideal.log_coe, if_neg (not_le.mpr hZ), Ideal.div_coe hS.ne']
  rw [← EReal.coe_zero]
  simp only [← EReal.coe_add, ← EReal.coe_sub, Ideal.exp_coe, ← EReal.coe_mul, ← EReal.coe_neg]
  rw [EReal.coe_eq_coe_iff]
  rw [show a - (b + Real.log S) = (a - b) - Real.log S by ring, Real.exp_sub, Real.exp_log hS]
  ring

/-- The maximum of a row of real numbers is a real number. -/
theorem sup_real (a : Fin 16384 → ℝ) : ∃ m : ℝ, Finset.univ.sup (fun j => (a j : EReal)) = (m : EReal) := by
  apply LibFiniteMax.real_of_ne
  · exact ((Finset.sup_lt_iff (bot_lt_top (α := EReal))).2 fun j _ => EReal.coe_lt_top (a j)).ne
  · exact ne_of_gt (lt_of_lt_of_le (EReal.bot_lt_coe (a 0))
      (Finset.le_sup (f := fun j => (a j : EReal)) (Finset.mem_univ (0 : Fin 16384))))

/-- A sum of exponentials of real numbers is a positive real number. -/
theorem sumExp_real (a : Fin 16384 → ℝ) (m : ℝ) :
    ∃ S : ℝ, 0 < S ∧ ∑ j, Ideal.exp ((a j : EReal) - (m : EReal)) = (S : EReal) := by
  refine ⟨∑ j, Real.exp (a j - m), Finset.sum_pos (fun j _ => Real.exp_pos _) ⟨0, Finset.mem_univ _⟩, ?_⟩
  simp only [← EReal.coe_sub, Ideal.exp_coe]
  exact LibMoment.coe_finset_sum _ _

/-- One row of the loss: the summands written with the log-sum-exp of the logits and of the targets
   are the summands of the soft cross entropy, when the row's entries are real numbers. -/
theorem row_terms (L T : Fin 64 → Fin 16384 → EReal) (hL : ∀ r j, ∃ a : ℝ, L r j = (a : EReal))
    (hT : ∀ r j, ∃ a : ℝ, T r j = (a : EReal)) (r : Fin 64) :
    ∑ j, (0 - Ideal.exp (T r j - (Cert.Spec.rowMax T r + Ideal.log (Cert.Spec.rowSumExp T r))))
          * (L r j - (Cert.Spec.rowMax L r + Ideal.log (Cert.Spec.rowSumExp L r)))
      = ∑ j, Cert.Spec.term L T r j := by
  choose a ha using hL
  choose c hc using hT
  obtain rfl : L = fun r j => (a r j : EReal) := funext fun r => funext fun j => ha r j
  obtain rfl : T = fun r j => (c r j : EReal) := funext fun r => funext fun j => hc r j
  obtain ⟨m, hm⟩ := sup_real (a r)
  obtain ⟨n, hn⟩ := sup_real (c r)
  obtain ⟨Z, hZ, hZe⟩ := sumExp_real (a r) m
  obtain ⟨S, hS, hSe⟩ := sumExp_real (c r) n
  have hmL : Cert.Spec.rowMax (fun r j => (a r j : EReal)) r = (m : EReal) := hm
  have hnT : Cert.Spec.rowMax (fun r j => (c r j : EReal)) r = (n : EReal) := hn
  have hZL : Cert.Spec.rowSumExp (fun r j => (a r j : EReal)) r = (Z : EReal) := by
    unfold Cert.Spec.rowSumExp; rw [hmL]; exact hZe
  have hST : Cert.Spec.rowSumExp (fun r j => (c r j : EReal)) r = (S : EReal) := by
    unfold Cert.Spec.rowSumExp; rw [hnT]; exact hSe
  refine Finset.sum_congr rfl fun j _ => ?_
  unfold Cert.Spec.term
  rw [hmL, hnT, hZL, hST]
  exact term_law (c r j) n (a r j) m S Z hS hZ

end Cert.KvB

end
-- ==== Proof.KvBMain.lean ====
/-
  The last grid point's arithmetic equals the loss.

  The composition of the kernel's pure pieces over the eight tiles is folded into three column vectors
  (the row maxima, the row sums of exponentials through the sixth tile, the row log-sum-exps) which are
  the same functions of the logit tiles and of the target tiles.  At row `r` they are the row maximum, and
  the maximum plus the log of the sum of exponentials, of the whole row (regrouping of a maximum and of a
  sum by tiles: no finiteness).  The running sum of summands at row `r` is then the sum over the whole row
  of (0 - exp (target - target log-sum-exp)) * (logit - logit log-sum-exp), which for real entries is the
  row's sum of soft cross-entropy summands; the 64 rows are added and divided by the batch size.
-/
import proofs.«107741_j23519240913060_1_alg».proof.Proof.KvBDef
import proofs.«107741_j23519240913060_1_alg».proof.Proof.KvBOps
import proofs.«107741_j23519240913060_1_alg».proof.Proof.KvBRow

noncomputable section

namespace Cert.KvB

open Idealize.ShloMosaic Idealize.ShloMosaic.ValueIdx Cert.KernelIdeal Cert.KernelIdeal.Gen

/-- The column of row maxima over all eight tiles. -/
def cmaxV (s : Fin 8 → Vec Ideal S64x2048 .f32) : FVec Ideal S64x1 .f32 :=
  k0_pay6 (k0_pay4 (s 0) (s 1) (s 2) (s 3)) (s 4) (s 5) (s 6) (s 7)

/-- The column of row sums of exp (entry - row maximum) over the first six tiles. -/
def csumV (s : Fin 8 → Vec Ideal S64x2048 .f32) : FVec Ideal S64x1 .f32 :=
  k0_pay12 (cmaxV s) (k0_pay10 (cmaxV s) (k0_pay8 (F := Ideal)) (s 0) (s 1) (s 2)) (s 3) (s 4) (s 5)

/-- The column of row log-sum-exps: maximum + log (sum over all eight tiles). -/
def clseV (s : Fin 8 → Vec Ideal S64x2048 .f32) : FVec Ideal S64x1 .f32 :=
  k0_pay14 (cmaxV s) (csumV s) (s 6) (s 7)

/-- The composition, with the three columns named: the logits and the targets go through the same
   functions in the first two passes. -/
theorem lossTiles_fold (s t : Fin 8 → Vec Ideal S64x2048 .f32) :
    lossTiles (F := Ideal) s t
      = k0_pay3 (clseV s) (clseV t)
          (k0_pay21 (clseV s) (clseV t)
            (k0_pay19 (clseV s) (clseV t) (k0_pay16 (F := Ideal))
              (k0_pay17 (cmaxV s) (csumV s) (s 6) (s 7) (s 0))
              (k0_pay18 (cmaxV t) (csumV t) (t 6) (t 7) (t 0)) (s 1) (t 1) (s 2) (t 2))
            (k0_pay20 (clseV s) (clseV t) (s 3) (t 3)) (s 4) (t 4) (s 5) (t 5) (s 6) (t 6))
          (s 7) (t 7) := rfl

theorem pay12_apply (m l : FVec Ideal S64x1 .f32) (a b c : FVec Ideal S64x2048 .f32) (r : Fin 64) :
    k0_pay12 (F := Ideal) m l a b c (ix2 r (0 : Fin 1))
      = l (ix2 r (0 : Fin 1)) + rsumexp a r (m (ix2 r (0 : Fin 1))) + rsumexp b r (m (ix2 r (0 : Fin 1)))
          + rsumexp c r (m (ix2 r (0 : Fin 1))) :=
  pay10_apply m l a b c r

section rows

variable (s t : Fin 8 → Vec Ideal S64x2048 .f32) (L T : Fin 64 → Fin 16384 → EReal)

theorem rmax_tile (hs : ∀ b r q, s b (ix2 r q) = L r (blk b q)) (b : Fin 8) (r : Fin 64) :
    rmax (s b) r = Finset.univ.sup fun q => L r (blk b q) :=
  Finset.sup_congr rfl fun q _ => hs b r q

theorem rsumexp_tile (hs : ∀ b r q, s b (ix2 r q) = L r (blk b q)) (b : Fin 8) (r : Fin 64) (c : EReal) :
    rsumexp (s b) r c = ∑ q, Ideal.exp (L r (blk b q) - c) :=
  Finset.sum_congr rfl fun q _ => congrArg (fun z => Ideal.exp (z - c)) (hs b r q)

theorem rterm_tile (hs : ∀ b r q, s b (ix2 r q) = L r (blk b q)) (ht : ∀ b r q, t b (ix2 r q) = T r (blk b q))
    (b : Fin 8) (r : Fin 64) (lse tlse : EReal) :
    rterm (s b) (t b) r lse tlse = ∑ q, (0 - Ideal.exp (T r (blk b q) - tlse)) * (L r (blk b q) - lse) := by
  unfold rterm
  exact Finset.sum_congr rfl fun q _ => by rw [hs b r q, ht b r q]

/-- The column of maxima at row `r` is the row's maximum. -/
theorem cmaxV_row (hs : ∀ b r q, s b (ix2 r q) = L r (blk b q)) (r : Fin 64) :
    cmaxV s (ix2 r (0 : Fin 1)) = Cert.Spec.rowMax L r := by
  unfold cmaxV
  rw [pay6_apply, pay4_apply]
  simp only [rmax_tile s L hs]
  exact max_blocks (L r)

/-- The column of log-sum-exps at row `r`: the row's maximum plus the log of its sum of exponentials. -/
theorem clseV_row (hs : ∀ b r q, s b (ix2 r q) = L r (blk b q)) (r : Fin 64) :
    clseV s (ix2 r (0 : Fin 1)) = Cert.Spec.rowMax L r + Ideal.log (Cert.Spec.rowSumExp L r) := by
  unfold clseV
  rw [pay14_apply]
  unfold csumV
  rw [pay12_apply, pay10_apply, pay8_apply, cmaxV_row s L hs r]
  simp only [rsumexp_tile s L hs]
  exact congrArg (fun z => Cert.Spec.rowMax L r + Ideal.log z)
    (sum_blocks8 fun j => Ideal.exp (L r j - Cert.Spec.rowMax L r))

/-- The running sum of summands at row `r`, after the last tile, is the row's sum of summands. -/
theorem row_total (hs : ∀ b r q, s b (ix2 r q) = L r (blk b q)) (ht : ∀ b r q, t b (ix2 r q) = T r (blk b q))
    (hL : ∀ r j, ∃ a : ℝ, L r j = (a : EReal)) (hT : ∀ r j, ∃ a : ℝ, T r j = (a : EReal)) (r : Fin 64) :
    k0_pay21 (F := Ideal) (clseV s) (clseV t)
          (k0_pay19 (clseV s) (clseV t) (k0_pay16 (F := Ideal))
            (k0_pay17 (cmaxV s) (csumV s) (s 6) (s 7) (s 0))
            (k0_pay18 (cmaxV t) (csumV t) (t 6) (t 7) (t 0)) (s 1) (t 1) (s 2) (t 2))
          (k0_pay20 (clseV s) (clseV t) (s 3) (t 3)) (s 4) (t 4) (s 5) (t 5) (s 6) (t 6) (ix2 r (0 : Fin 1))
        + rterm (s 7) (t 7) r (clseV s (ix2 r (0 : Fin 1))) (clseV t (ix2 r (0 : Fin 1)))
      = ∑ j, Cert.Spec.term L T r j := by
  rw [pay21_apply, pay19_apply, pay20_apply, pay16_apply]
  simp only [pay17_apply, pay18_apply]
  change csum8 (fun b => rterm (s b) (t b) r (clseV s (ix2 r (0 : Fin 1))) (clseV t (ix2 r (0 : Fin 1)))) = _
  rw [clseV_row s L hs r, clseV_row t T ht r]
  simp only [rterm_tile s t L T hs ht]
  refine (sum_blocks8 fun j =>
    (0 - Ideal.exp (T r j - (Cert.Spec.rowMax T r + Ideal.log (Cert.Spec.rowSumExp T r))))
      * (L r j - (Cert.Spec.rowMax L r + Ideal.log (Cert.Spec.rowSumExp L r)))).trans ?_
  exact row_terms L T hL hT r

end rows

/-- THE LAST GRID POINT: on tiles that hold real logits `L` and real targets `T`, the composition of the
   kernel's pure pieces is the loss. -/
theorem lossTiles_eq (s t : Fin 8 → Vec Ideal S64x2048 .f32) (L T : Fin 64 → Fin 16384 → EReal)
    (hs : ∀ (b : Fin 8) (r : Fin 64) (q : Fin 2048), s b (ix2 r q) = L r ⟨b.val * 2048 + q.val, by omega⟩)
    (ht : ∀ (b : Fin 8) (r : Fin 64) (q : Fin 2048), t b (ix2 r q) = T r ⟨b.val * 2048 + q.val, by omega⟩)
    (hL : ∀ r j, ∃ a : ℝ, L r j = (a : EReal)) (hT : ∀ r j, ∃ a : ℝ, T r j = (a : EReal)) :
    lossTiles (F := Ideal) s t (ix2 (0 : Fin 1) (0 : Fin 1)) = Cert.Spec.loss L T := by
  have hs' : ∀ b r q, s b (ix2 r q) = L r (blk b q) := hs
  have ht' : ∀ b r q, t b (ix2 r q) = T r (blk b q) := ht
  rw [lossTiles_fold, pay3_apply]
  unfold Cert.Spec.loss Cert.Spec.batch
  refine congrArg (fun z => Ideal.div z (Ideal.ofBits .f32 0x42800000#32)) ?_
  exact Finset.sum_congr rfl fun r _ => row_total s t L T hs' ht' hL hT r

/-- The same at every index of the 1 by 1 result: there is only one. -/
theorem lossTiles_eq_all (s t : Fin 8 → Vec Ideal S64x2048 .f32) (L T : Fin 64 → Fin 16384 → EReal)
    (hs : ∀ (b : Fin 8) (r : Fin 64) (q : Fin 2048), s b (ix2 r q) = L r ⟨b.val * 2048 + q.val, by omega⟩)
    (ht : ∀ (b : Fin 8) (r : Fin 64) (q : Fin 2048), t b (ix2 r q) = T r ⟨b.val * 2048 + q.val, by omega⟩)
    (hL : ∀ r j, ∃ a : ℝ, L r j = (a : EReal)) (hT : ∀ r j, ∃ a : ℝ, T r j = (a : EReal)) (i : S1x1.Idx) :
    lossTiles (F := Ideal) s t i = Cert.Spec.loss L T := by
  have h0 : (i 0).val = 0 := by have := idx2_lt0 i; omega
  have h1 : (i 1).val = 0 := by have := idx2_lt1 i; omega
  have hi : i = ix2 (0 : Fin 1) (0 : Fin 1) :=
    (eq_ix2 i).trans (congrArg₂ ix2 (Fin.ext h0) (Fin.ext h1))
  rw [hi]
  exact lossTiles_eq s t L T hs ht hL hT

end Cert.KvB

end
-- ==== Proof.PcCBridgeFinal.lean ====
/-
  The kernel's one number is the specification's loss, under the input precondition.

  The last grid point's arithmetic on tiles of real logits and real targets is the loss; with the kernel's logits
  array equal to the specification's logits and everything real under the precondition, the kernel's result is the
  loss of the specification's logits of the inputs and the bank, and of the targets.
-/
import proofs.«107741_j23519240913060_1_alg».proof.Proof.PcCBridgeOut
import proofs.«107741_j23519240913060_1_alg».proof.Proof.KvBMain

set_option maxRecDepth 16384

noncomputable section

namespace Cert.PcC

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ) (c : Dev nD)

/-- THE KERNEL'S RESULT under the precondition: the loss of the specification's logits and the targets. -/
theorem outVal_eq [Cert.Pre_finite_inputs.Facts]
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    outVal (F := Ideal) m c
      = fun _ => Cert.Spec.loss
          (Cert.Spec.logit (fun r k => m ((c : Thread nD τ).loc main_arg0) (ix2 r k))
            (fun j k => m ((c : Thread nD τ).loc main_arg3) (ix2 j k)))
          (fun r j => m ((c : Thread nD τ).loc main_arg1) (ix2 r j)) :=
  outVal_eq_of m c (fun s t L T hs ht hL hT => Cert.KvB.lossTiles_eq s t L T hs ht hL hT) hpre

end Cert.PcC

end
-- ==== Proof.KtARun.lean ====
/-
  The kernel computes the specification's loss.

  The run of the idealized kernel ends with the result array at the loss (the last point's write-back), the host line
  after the region reshapes it to the scalar result, and under the precondition that loss is the specification's loss
  of the argument arrays. The argument arrays end as launched.
-/
import proofs.«107741_j23519240913060_1_alg».proof.Proof.KtATail
import proofs.«107741_j23519240913060_1_alg».proof.Proof.KiBody
import proofs.«107741_j23519240913060_1_alg».proof.Proof.PcCBridgeFinal
import proofs.«107741_j23519240913060_1_alg».proof.Defs

set_option maxRecDepth 16384

noncomputable section

namespace Cert.KtA

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- On every device, from any memory with zero counters whose argument arrays satisfy the precondition: every weakly
    fair execution of the kernel terminates with its result at the specification's loss of the argument arrays and the
    arguments unchanged. -/
theorem kernel_run_spec [Cert.Pre_finite_inputs.Facts] (m : (ℓ : Loc nD τ sig) → Buf (Elt Ideal) ℓ) (ρ : Dev nD → PrngReg)
    (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v1)
        = (fun _ => Cert.Spec.loss
            (Cert.Spec.logit (fun r k => m ((c.tc : Thread nD τ).loc main_arg0) (ix2 r k))
              (fun j k => m ((c.tc : Thread nD τ).loc main_arg3) (ix2 j k)))
            (fun r j => m ((c.tc : Thread nD τ).loc main_arg1) (ix2 r j)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
    ⟨(((h c).2 main_v1 (Pipeline.mem_restRefs_of main_v1 (by decide) (by decide))).trans (tail_value m c)).trans
        (funext fun _ => congrFun (Cert.PcC.outVal_eq m c (hpre c)) (ix2 0 0)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c)))⟩)
    (run_main (F := Ideal) m ρ)

end Cert.KtA

end
-- ==== Proof.lean ====
/-
  The certificate of the memory-bank soft cross entropy kernel against its reference.

  Both programs compute, for 64 input rows x of 2048 features, a bank f of 16384 rows and soft targets T:
      xhat = x / ||x||  (row by row),   L = (xhat f^T) / temp,   loss = (sum_{r,j} -softmax(T)[r,j] log_softmax(L)[r,j]) / 64
  (Proof/Spec.lean states this once, as one function on the extended reals).

  The reference is read back operation by operation and is the Spec with no hypothesis at all. The kernel walks the
  bank in 16 column tiles: the first grid point scales the rows to unit length, every point stores its 64 x 1024
  tile of logits into a scratch — multiplying by the NAMED reciprocal of the temperature, which is division by it on
  every extended real —, and the last point reduces the loss from that scratch in three passes over eight tiles of
  2048 columns: running maxima, running sums of exp, and the weighted sum with the log-sum-exp folded into one
  subtrahend. Regrouping a maximum or a sum by tiles holds on every extended real; the one law that needs real
  numbers is  (0 - exp(a - (b + log S))) (l - (m + log Z)) = -(exp(a - b) / S) ((l - m) - log Z)  for S, Z > 0,
  and the precondition (finite inputs, no input row all zero) makes every quantity in it real.

  The frames of both kernel programs go through one hand-written body obligation, generic in the float instance:
  the logits scratch is carried from point to point as "filled up to this point".
-/
import proofs.«107741_j23519240913060_1_alg».proof.Defs
import proofs.«107741_j23519240913060_1_alg».proof.Proof.Gen.Kernel
import proofs.«107741_j23519240913060_1_alg».proof.Proof.Gen.KernelIdeal
import proofs.«107741_j23519240913060_1_alg».proof.Proof.Gen.ReferenceIdeal
import proofs.«107741_j23519240913060_1_alg».proof.Proof.Gen.Pre_finite_inputs
import proofs.«107741_j23519240913060_1_alg».proof.Proof.KbBody
import proofs.«107741_j23519240913060_1_alg».proof.Proof.KiBody
import proofs.«107741_j23519240913060_1_alg».proof.Proof.RefAValue
import proofs.«107741_j23519240913060_1_alg».proof.Proof.KtARun
import Idealize.ShloMosaic.PureOps.IdealRules
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.RefA.run_spec m ρ)

/-- The one rewrite of the idealization: the scalar 20.0 reads as the exact reciprocal of the temperature's word. -/
theorem preserves : Cert.preserves_Kernel_KernelIdeal :=
  IdealRules.named_const.statement Cert.KernelIdeal.κ "inv_temp" .f32 0x41A00000#32 ((268435456 / 13421773 : ℝ) : EReal) rfl

/-- Both idealized programs end at the Spec's loss of the same arguments. -/
theorem algebraic : Cert.algebraic_KernelIdeal_ReferenceIdeal := by
  intro m ρ m' ρ' hpre hagree
  refine ⟨_, Cert.KtA.kernel_run_spec m ρ hpre, ?_⟩
  refine (θ_run Cert.ReferenceIdeal.defs _ _).mono (fun _ h c => ⟨(h c).1.trans ?_, (h c).2⟩)
    (Cert.RefA.run_spec m' ρ')
  rw [(hagree c).1, (hagree c).2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
